-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x8192 : Shape := ⟨2, ![4, 8192]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : IVec S4x8192 32) (main_arg1 : FVec F S8192x1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 32 := constantI S_ 32 0#32
  let main_v4 : IVec S4x8192 32 := broadcastInDim S4x8192 ![] bcast_S_S4x8192 main_c_0
  let main_v5 : IVec S4x8192 1 := cmpi .sge main_arg0 main_v4
  let main_c_1 : IVec S_ 32 := constantI S_ 32 999#32
  let main_v6 : IVec S4x8192 32 := broadcastInDim S4x8192 ![] bcast_S_S4x8192 main_c_1
  let main_v7 : IVec S4x8192 1 := cmpi .sle main_arg0 main_v6
  let main_v8 : IVec S4x8192 1 := andi main_v5 main_v7
  let main_c_2 : IVec S_ 1 := constantI S_ 1 1#1
  let main_v9 : IVec S_ 1 := (fun x v => Host.reduce IntOp.andi x v reducesTo_S4x8192_S_d0_1 h_S_) main_v8 main_c_2
  let main_v10 : IVec S_ 1 := andi main_v3 main_v9
  main_v10
-- ==== Kernel.lean ====
abbrev S4x8192 : Shape := ⟨2, ![4, 8192]⟩
abbrev S8192x1024 : Shape := ⟨2, ![8192, 1024]⟩
abbrev S4x8192x1024 : Shape := ⟨3, ![4, 8192, 1024]⟩
abbrev S3x32x1024 : Shape := ⟨3, ![3, 32, 1024]⟩
abbrev S3 : Shape := ⟨1, ![3]⟩
abbrev S1x32x1024 : Shape := ⟨3, ![1, 32, 1024]⟩
abbrev S32x1024 : Shape := ⟨2, ![32, 1024]⟩
abbrev S1 : Shape := ⟨1, ![1]⟩
abbrev S_ : Shape := ⟨0, ![]⟩

abbrev nBuf : Table → Nat
  | .hbm => 3
  | .local .scVector .vmem => 1
  | _ => 0

abbrev bufTy : (tb : Table) → Fin (nBuf tb) → BufTy
  | .hbm, ⟨0, _⟩ => ⟨S4x8192, .i32⟩
  | .hbm, ⟨1, _⟩ => ⟨S8192x1024, .f32⟩
  | .hbm, ⟨2, _⟩ => ⟨S4x8192x1024, .f32⟩
  | .local .scVector .vmem, ⟨0, _⟩ => ⟨S3x32x1024, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_4 : BitVec 32 := 0#32
  ![v3.toNat, 0]
def k0_off2 (i : grid0.Coords) (c0_i32_32 : BitVec 32) : Fin 3 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v39 : BitVec 32 := Scalar.addi v2 c0_i32_32
  let c0_i32_38 : BitVec 32 := 0#32
  ![0, v39.toNat, 0]
def k0_off3 (i : grid0.Coords) (c0_i32_42 : BitVec 32) : Fin 3 → Nat :=
  let c1_i32_44 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v50 : BitVec 32 := Scalar.addi v2 c0_i32_42
  let c0_i32_48 : BitVec 32 := 0#32
  ![1, v50.toNat, 0]
def k0_off4 (i : grid0.Coords) (c0_i32_52 : BitVec 32) : Fin 3 → Nat :=
  let c2_i32_54 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v61 : BitVec 32 := Scalar.addi v2 c0_i32_52
  let c0_i32_58 : BitVec 32 := 0#32
  ![2, v61.toNat, 0]
def k0_off5 (i : grid0.Coords) (c0_i32_62 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v72 : BitVec 32 := Scalar.addi v2 c0_i32_62
  let c0_i32_67 : BitVec 32 := 0#32
  ![3, v72.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S3x32x1024_S1x32x1024_0_0_0 : ∀ a, (![0, 0, 0] : Fin 3 → Nat) a + S1x32x1024.size a ≤ S3x32x1024.size a
  squeezes_S1x32x1024_S32x1024 : S1x32x1024.Squeezes S32x1024
  inb_S3_S1_0 : ∀ a, (![0] : Fin 1 → Nat) a + S1.size a ≤ S3.size a
  squeezes_S1_S_ : S1.Squeezes S_
  inb_S3x32x1024_S1x32x1024_1_0_0 : ∀ a, (![1, 0, 0] : Fin 3 → Nat) a + S1x32x1024.size a ≤ S3x32x1024.size a
  inb_S3_S1_1 : ∀ a, (![1] : Fin 1 → Nat) a + S1.size a ≤ S3.size a
  inb_S3x32x1024_S1x32x1024_2_0_0 : ∀ a, (![2, 0, 0] : Fin 3 → Nat) a + S1x32x1024.size a ≤ S3x32x1024.size a
  inb_S3_S1_2 : ∀ a, (![2] : Fin 1 → Nat) a + S1.size a ≤ S3.size a
  hcc0_scratch1 : 0 + S3.numel ≤ 6
  hcc0_scratch2 : 3 + S3.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 8), ∀ a, (k0_off1 i (BitVec.ofNat 32 (32 * r.val))) a + S32x1024.size a ≤ S8192x1024.size a
  k0_off2_inb : ∀ i : grid0.Coords, ∀ (r : Fin 8), ∀ a, (k0_off2 i (BitVec.ofNat 32 (32 * r.val))) a + S1x32x1024.size a ≤ S4x8192x1024.size a
  k0_off3_inb : ∀ i : grid0.Coords, ∀ (r : Fin 8), ∀ a, (k0_off3 i (BitVec.ofNat 32 (32 * r.val))) a + S1x32x1024.size a ≤ S4x8192x1024.size a
  k0_off4_inb : ∀ i : grid0.Coords, ∀ (r : Fin 8), ∀ a, (k0_off4 i (BitVec.ofNat 32 (32 * r.val))) a + S1x32x1024.size a ≤ S4x8192x1024.size a
  k0_off5_inb : ∀ i : grid0.Coords, ∀ (r : Fin 8), ∀ a, (k0_off5 i (BitVec.ofNat 32 (32 * r.val))) a + S1x32x1024.size a ≤ S4x8192x1024.size a

variable [Facts₀]

abbrev cc0_scratch1 : DmaSems sig S3 := SemArray.consecutive 0 S3 hcc0_scratch1
abbrev cc0_scratch2 : DmaSems sig S3 := SemArray.consecutive 3 S3 hcc0_scratch2

class Facts : Prop extends Facts₀ where

variable [Facts]
-- ==== ReferenceIdeal.lean ====
abbrev S4x8192 : Shape := ⟨2, ![4, 8192]⟩
abbrev S8192x1024 : Shape := ⟨2, ![8192, 1024]⟩
abbrev S8192 : Shape := ⟨1, ![8192]⟩
abbrev S1x8192 : Shape := ⟨2, ![1, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x1024 : Shape := ⟨3, ![4, 8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S4x8192, .i32⟩
  | .hbm, ⟨5, _⟩ => ⟨S_, .i32⟩
  | .hbm, ⟨6, _⟩ => ⟨S4x8192, .i32⟩
  | .hbm, ⟨7, _⟩ => ⟨S4x8192, .i1⟩
  | .hbm, ⟨8, _⟩ => ⟨S_, .i32⟩
  | .hbm, ⟨9, _⟩ => ⟨S4x8192, .i32⟩
  | .hbm, ⟨10, _⟩ => ⟨S4x8192, .i32⟩
  | .hbm, ⟨11, _⟩ => ⟨S4x8192, .i32⟩
  | .hbm, ⟨12, _⟩ => ⟨S4x8192x1, .i32⟩
  | .hbm, ⟨13, _⟩ => ⟨S1, .i32⟩
  | .hbm, ⟨14, _⟩ => ⟨S_, .i32⟩
  | .hbm, ⟨15, _⟩ => ⟨S4x8192x1, .i32⟩
  | .hbm, ⟨16, _⟩ => ⟨S4x8192x1, .i1⟩
  | .hbm, ⟨17, _⟩ => ⟨S1x1x1, .i32⟩
  | .hbm, ⟨18, _⟩ => ⟨S4x8192x1, .i32⟩
  | .hbm, ⟨19, _⟩ => ⟨S4x8192x1, .i1⟩
  | .hbm, ⟨20, _⟩ => ⟨S4x8192x1, .i1⟩
  | .hbm, ⟨21, _⟩ => ⟨S_, .i1⟩
  | .hbm, ⟨22, _⟩ => ⟨S4x8192, .i1⟩
  | .hbm, ⟨23, _⟩ => ⟨S4x8192x1024, .f32⟩
  | .hbm, ⟨24, _⟩ => ⟨S4x8192x1024, .i1⟩
  | .hbm, ⟨25, _⟩ => ⟨S_, .f32⟩
  | .hbm, ⟨26, _⟩ => ⟨S4x8192x1024, .f32⟩
  | .hbm, ⟨27, _⟩ => ⟨S4x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x1024_0_1 : S4x8192.BroadcastsInDim S4x8192x1024 (![0, 1] : Fin 2 → Fin S4x8192x1024.rank)
  bcast_S_S4x8192x1024 : S_.BroadcastsInDim S4x8192x1024 (![] : Fin 0 → Fin S4x8192x1024.rank)
  gather_S8192x1024_S4x8192x1_S4x8192x1024_2_0_n_n_0_2_11024_wf : GatherDims.WF S8192x1024 S4x8192x1 S4x8192x1024 [2] [0] [] [0] [] 2 ![1, 1024]

variable [Facts₀]

def gather_S8192x1024_S4x8192x1_S4x8192x1024_2_0_n_n_0_2_11024 : GatherDims S8192x1024 S4x8192x1 S4x8192x1024 where
  offsetDims := [2]
  collapsedSliceDims := [0]
  operandBatchingDims := []
  startIndicesBatchingDims := []
  startIndexMap := [0]
  indexVectorDim := 2
  sliceSizes := ![1, 1024]
  wf := gather_S8192x1024_S4x8192x1_S4x8192x1024_2_0_n_n_0_2_11024_wf

class Facts : Prop extends Facts₀ where

variable [Facts]
-- ==== Proof.Spec.lean ====
/-
  What both programs compute, as one function of the table.

  The table is an array of 8192 rows of 1024 numbers. The result is an array of 4 × 8192 × 1024 numbers whose entry
  (b, r, d) is the table's entry (r, d): each of the four batch entries is a whole copy of the table. The lookup's
  position indices are 0, 1, …, 8191 for every batch entry, so the "gather" is the identity on rows; the integer
  argument plays no part in the result.
-/
import Idealize.ShloMosaic.PureOps
import Idealize.ShloMosaic.Lib.ValueIdx

noncomputable section

namespace Cert.Proof.Spec

open Idealize.ShloMosaic Idealize.ShloMosaic.ValueIdx

/-- The table's shape: 8192 rows of 1024 columns. -/
abbrev STab : Shape := ⟨2, ![8192, 1024]⟩
/-- The result's shape: 4 batch entries of 8192 rows of 1024 columns. -/
abbrev SOut : Shape := ⟨3, ![4, 8192, 1024]⟩

/-- The table's index under a result index: the batch coordinate dropped. -/
abbrev under (i : SOut.Idx) : STab.Idx := ix2 (n0 := 8192) (n1 := 1024) (i 1) (i 2)

/-- The result as a function of the table: entry (b, r, d) is the table's (r, d), for every element type. -/
def tiled {α : Type} (t : STab.Idx → α) : SOut.Idx → α := fun i => t (under i)

theorem tiled_apply {α : Type} (t : STab.Idx → α) (i : SOut.Idx) : tiled t i = t (under i) := rfl

/-- At coordinates: entry (b, r, d) of the result is entry (r, d) of the table. -/
theorem tiled_ix3 {α : Type} (t : STab.Idx → α) (b : Fin 4) (r : Fin 8192) (d : Fin 1024) :
    tiled t (ix3 b r d) = t (ix2 r d) := rfl

end Cert.Proof.Spec

end
-- ==== Proof.KernelViews.lean ====
/-
  The views the kernel's body moves data through, and what one load followed by one store leaves.

  Each of the 32 vector subcores owns 256 consecutive rows of the table, in eight chunks of 32 rows. A chunk is
  loaded into one of three staging slots and from there stored to the same rows of each of the four batch entries
  of the result. A load's source is a 32 × 1024 window of the table starting at row `o`; a store's destination is the
  32 × 1024 window of batch entry `b` of the result starting at the same row `o`. Under the index map that drops the
  batch coordinate the destination's element `y` lies over the source's element `y`: that is all the value proof
  needs, because a copy writes element `y` of its source window to element `y` of its destination window.
-/
import proofs.«201523_g6305011990835_cont_9to1c4b_36_17_alg».proof.Proof.Gen.Kernel
import proofs.«201523_g6305011990835_cont_9to1c4b_36_17_alg».proof.Proof.Spec
import Idealize.ShloMosaic.Lib.Writes

noncomputable section

namespace Cert.Proof.Kernel

open Cert.Kernel Cert.Kernel.Gen
open Idealize.ShloMosaic
open Cert.Proof.Spec

variable {F : FTy → Type}

/-- The table, the result and the staging buffer, whole, as a vector subcore names them. -/
abbrev xW : Memref sig .scVector .hbm S8192x1024 .f32 := Memref.whole main_arg1_scv
abbrev oW : Memref sig .scVector .hbm S4x8192x1024 .f32 := Memref.whole main_v0_scv
abbrev bW : Memref sig .scVector .vmem S3x32x1024 .f32 := Memref.whole cc0_scratch0

/-- The 32 × 1024 window of the table at offsets `off`. -/
abbrev tabOf (off : Fin 2 → Nat) (h : ∀ a, off a + S32x1024.size a ≤ S8192x1024.size a) : Memref sig .scVector .hbm S32x1024 .f32 :=
  (xW).slice (Rect.unit (s := S8192x1024) off S32x1024.size h) (fun _ => rfl)
/-- The 1 × 32 × 1024 window of the result at offsets `off`, its leading unit axis dropped. -/
abbrev outOf (off : Fin 3 → Nat) (h : ∀ a, off a + S1x32x1024.size a ≤ S4x8192x1024.size a) : Memref sig .scVector .hbm S32x1024 .f32 :=
  ((oW).slice (Rect.unit (s := S4x8192x1024) off S1x32x1024.size h) (fun _ => rfl)).squeeze S32x1024 squeezes_S1x32x1024_S32x1024
/-- A slot of the staging buffer: the 1 × 32 × 1024 window at offsets `off`, its leading unit axis dropped. -/
abbrev slotOf (off : Fin 3 → Nat) (h : ∀ a, off a + S1x32x1024.size a ≤ S3x32x1024.size a) : Memref sig .scVector .vmem S32x1024 .f32 :=
  ((bW).slice (Rect.unit (s := S3x32x1024) off S1x32x1024.size h) (fun _ => rfl)).squeeze S32x1024 squeezes_S1x32x1024_S32x1024

/-- Where element `y` of a table window sits in the table: the offsets added coordinate by coordinate. -/
theorem tabOf_emb_val (off : Fin 2 → Nat) (h) (y : S32x1024.Idx) (a : Fin 2) :
    (((tabOf off h).view.emb y) a : Nat) = off a + (y a : Nat) := by
  show (((Rect.unit (s := S8192x1024) off S32x1024.size h).emb y) a : Nat) = _
  rw [Rect.emb_apply]; simp

/-- Where element `y` of a result window sits in the result: in the window's batch entry, the row and column offsets
    added to `y`'s two coordinates. -/
theorem outOf_emb_val (off : Fin 3 → Nat) (h) (y : S32x1024.Idx) :
    (((outOf off h).view.emb y) 0 : Nat) = off 0 ∧ (((outOf off h).view.emb y) 1 : Nat) = off 1 + (y 0 : Nat)
      ∧ (((outOf off h).view.emb y) 2 : Nat) = off 2 + (y 1 : Nat) := by
  have e : (Shape.reshapeEquiv (squeezes_S1x32x1024_S32x1024 : S1x32x1024.Squeezes S32x1024).numel_eq) y = Fin.cons ⟨0, Nat.one_pos⟩ y :=
    Shape.reshapeEquiv_cons_one (n := 2) (d := ![32, 1024]) _ y
  have k : ∀ a, (((outOf off h).view.emb y) a : Nat)
      = off a + ((Shape.reshapeEquiv (squeezes_S1x32x1024_S32x1024 : S1x32x1024.Squeezes S32x1024).numel_eq y) a : Nat) := by
    intro a
    show (((Rect.unit (s := S4x8192x1024) off S1x32x1024.size h).emb _) a : Nat) = _
    rw [Rect.emb_apply]; simp
  refine ⟨?_, ?_, ?_⟩
  · rw [k 0, e]; rfl
  · rw [k 1, e]; rfl
  · rw [k 2, e]; rfl

/-- A result window over a table window that starts at the same row, both at column 0: dropping the batch coordinate
    takes the result window's element `y` to the table window's element `y`. -/
theorem under_outOf (off : Fin 3 → Nat) (h) (off' : Fin 2 → Nat) (h') (h1 : off 1 = off' 0) (h2 : off 2 = off' 1) (y : S32x1024.Idx) :
    under ((outOf off h).view.emb y) = (tabOf off' h').view.emb y := by
  obtain ⟨-, e1, e2⟩ := outOf_emb_val off h y
  funext a
  match a with
  | ⟨0, _⟩ => exact Fin.ext (by rw [tabOf_emb_val]; show (((outOf off h).view.emb y) 1 : Nat) = _; rw [e1, h1]; rfl)
  | ⟨1, _⟩ => exact Fin.ext (by rw [tabOf_emb_val]; show (((outOf off h).view.emb y) 2 : Nat) = _; rw [e2, h2]; rfl)

/-- What a load of a table window into a staging slot, followed by a store of that slot to the result window over it,
    leaves in the result window: at every element of the window, the table's entry under it. The slot's earlier
    contents and its earlier loads do not matter (the load overwrites the whole slot), nor what the result held. -/
theorem landed (off : Fin 3 → Nat) (h) (off' : Fin 2 → Nat) (h') (h1 : off 1 = off' 0) (h2 : off 2 = off' 1)
    (slot : Memref sig .scVector .vmem S32x1024 .f32)
    (fx : STab.Idx → Elt F .f32) (fo : SOut.Idx → Elt F .f32) (fb : slot.view.ty.Contents (Elt F))
    (older : List (View.Piece (Elt F) S32x1024 .f32)) :
    ∀ i ∈ (outOf off h).view.set,
      (outOf off h).view.writes (Elt F) fo
          [⟨Rect.whole S32x1024, ReadAs.same.apply (slot.view.read (Elt F) (slot.view.writes (Elt F) fb
            (⟨Rect.whole S32x1024, ReadAs.same.apply ((tabOf off' h').view.read (Elt F) fx)⟩ :: older)))⟩] i
        = tiled fx i := by
  intro i hi
  obtain ⟨y, -, rfl⟩ := Finset.mem_map.mp hi
  have e : (Rect.whole S32x1024).emb y = y := by
    funext a; exact Fin.ext (by rw [Rect.emb_apply]; simp [Rect.whole])
  -- the slot, read back at `y`, holds the table window's element `y`
  have hslot := View.read_writes_cons_emb slot.view fb (Rect.whole S32x1024) (ReadAs.same.apply ((tabOf off' h').view.read (Elt F) fx)) older y
  rw [e] at hslot
  -- the result window, read back at `y`, holds what the slot read there
  have hdst := View.read_writes_cons_emb (outOf off h).view fo (Rect.whole S32x1024)
    (ReadAs.same.apply (slot.view.read (Elt F) (slot.view.writes (Elt F) fb
      (⟨Rect.whole S32x1024, ReadAs.same.apply ((tabOf off' h').view.read (Elt F) fx)⟩ :: older)))) [] y
  rw [e] at hdst
  have hd' := ((View.read_apply (v := (outOf off h).view) _ y).trans (cast_eq _ _)).symm.trans hdst
  refine hd'.trans ?_
  show slot.view.read (Elt F) _ y = _
  rw [hslot]
  show (tabOf off' h').view.read (Elt F) fx y = fx (under ((outOf off h).view.emb y))
  rw [under_outOf off h off' h' h1 h2 y]
  exact (View.read_apply (v := (tabOf off' h').view) _ y).trans (cast_eq _ _)

/-! ## The element sets -/

/-- A table window's elements: the rows from its row offset, 32 of them, when it starts at column 0. -/
theorem mem_tabOf_set (off : Fin 2 → Nat) (h) (h0 : off 1 = 0) (i : S8192x1024.Idx) :
    i ∈ (tabOf off h).view.set ↔ off 0 ≤ (i 0 : Nat) ∧ (i 0 : Nat) < off 0 + 32 := by
  have hs : (tabOf off h).view.set = (Rect.unit (s := S8192x1024) off S32x1024.size h).set := View.set_slice_whole _ _
  rw [hs, Rect.mem_set_unit]
  have hi1 : (i 1 : Nat) < 1024 := (i 1).isLt
  constructor
  · intro H; exact H (0 : Fin 2)
  · intro a b
    match b with
    | ⟨0, _⟩ => exact a
    | ⟨1, _⟩ =>
      show off 1 ≤ (i 1 : Nat) ∧ (i 1 : Nat) < off 1 + 1024
      rw [h0]; omega

/-- A result window's elements: its batch entry, the rows from its row offset, 32 of them, when it starts at
    column 0. -/
theorem mem_outOf_set (off : Fin 3 → Nat) (h) (h0 : off 2 = 0) (i : S4x8192x1024.Idx) :
    i ∈ (outOf off h).view.set ↔ (i 0 : Nat) = off 0 ∧ off 1 ≤ (i 1 : Nat) ∧ (i 1 : Nat) < off 1 + 32 := by
  have hs : (outOf off h).view.set = (Rect.unit (s := S4x8192x1024) off S1x32x1024.size h).set :=
    (View.set_reshape _ _).trans (View.set_slice_whole _ _)
  rw [hs, Rect.mem_set_unit]
  have hi2 : (i 2 : Nat) < 1024 := (i 2).isLt
  constructor
  · intro H
    have a : off 0 ≤ (i 0 : Nat) ∧ (i 0 : Nat) < off 0 + 1 := H (0 : Fin 3)
    have b : off 1 ≤ (i 1 : Nat) ∧ (i 1 : Nat) < off 1 + 32 := H (1 : Fin 3)
    exact ⟨by omega, b⟩
  · rintro ⟨a, b⟩ c
    match c with
    | ⟨0, _⟩ =>
      show off 0 ≤ (i 0 : Nat) ∧ (i 0 : Nat) < off 0 + 1
      omega
    | ⟨1, _⟩ => exact b
    | ⟨2, _⟩ =>
      show off 2 ≤ (i 2 : Nat) ∧ (i 2 : Nat) < off 2 + 1024
      rw [h0]; omega

/-- A staging slot's elements: those whose first coordinate is the slot's number. -/
theorem mem_slotOf_set (off : Fin 3 → Nat) (h) (h1 : off 1 = 0) (h2 : off 2 = 0) (i : S3x32x1024.Idx) :
    i ∈ (slotOf off h).view.set ↔ (i 0 : Nat) = off 0 := by
  have hs : (slotOf off h).view.set = (Rect.unit (s := S3x32x1024) off S1x32x1024.size h).set :=
    (View.set_reshape _ _).trans (View.set_slice_whole _ _)
  rw [hs, Rect.mem_set_unit]
  have hi1 : (i 1 : Nat) < 32 := (i 1).isLt
  have hi2 : (i 2 : Nat) < 1024 := (i 2).isLt
  constructor
  · intro H
    have a : off 0 ≤ (i 0 : Nat) ∧ (i 0 : Nat) < off 0 + 1 := H (0 : Fin 3)
    omega
  · intro a c
    match c with
    | ⟨0, _⟩ =>
      show off 0 ≤ (i 0 : Nat) ∧ (i 0 : Nat) < off 0 + 1
      omega
    | ⟨1, _⟩ =>
      show off 1 ≤ (i 1 : Nat) ∧ (i 1 : Nat) < off 1 + 32
      rw [h1]; omega
    | ⟨2, _⟩ =>
      show off 2 ≤ (i 2 : Nat) ∧ (i 2 : Nat) < off 2 + 1024
      rw [h2]; omega

end Cert.Proof.Kernel

end
-- ==== Proof.KernelSetup.lean ====
/-
  The kernel as a SparseCore launch: who holds what.

  The kernel copies the table into each of the four batch entries of the result. Its 32 vector subcores (two
  SparseCores of sixteen) each own 256 consecutive rows: subcore `s` of SparseCore `c` owns the rows from
  `512·s + 256·c`, in eight chunks of 32 rows. So the table splits into 2 · 16 · 8 = 256 chunks of 32 rows, one owner
  each, and the result into 4 · 256 pieces, the chunk's rows in each batch entry. A subcore is handed exactly its
  eight chunks of the table and its thirty-two pieces of the result; it hands the chunks back unchanged and every
  piece holding the table's entries under it. Nothing is shared, so nothing is raced for: the pieces are pairwise
  disjoint and together they are the whole arrays.
-/
import proofs.«201523_g6305011990835_cont_9to1c4b_36_17_alg».proof.Proof.KernelViews
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.Kernel

open Cert.Kernel Cert.Kernel.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nCore_any (q : Fin 1) : (K (F := F)).nCore q = 2 := match q with | 0 => rfl
theorem nSub_any (q : Fin 1) : (K (F := F)).nSub q = 16 := match q with | 0 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The integer argument (unused by the kernel), the table and the result, as locations of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The result a copy of the table in each batch entry, as contents of the result's buffer on device `d`. -/
def tiledAt (d : Dev nD) (fx : Buf (Elt F) (xLoc d)) : Buf (Elt F) (oLoc d) := tiled fx
theorem tiledAt_eq (d : Dev nD) (fx : Buf (Elt F) (xLoc d)) : tiledAt d fx = tiled fx := rfl

/-! ## A vector subcore's windows -/

abbrev cV (L : grid0.Coords) : Fin τ.nSC := (L 0).castLE hcore0
abbrev jV (L : grid0.Coords) : Fin τ.nSub := (L 1).castLE hsub0

/-- The grid point of vector subcore `s` of SparseCore `c`, as the body table builds it. -/
def coordsV (c : Fin (grid0.bound 0)) (s : Fin (grid0.bound 1)) : grid0.Coords :=
  fun | 0 => c | 1 => s | ⟨_ + 2, h⟩ => absurd h (Nat.not_lt.2 (Nat.le_add_left _ _))

/-- The first row of chunk `r` of the subcore at `L`. -/
abbrev rowOf (L : grid0.Coords) (r : Fin 8) : Nat := 512 * (L 1).val + 256 * (L 0).val + 32 * r.val

/-- Chunk `r` of the table, and the piece of batch entry 0, 1, 2, 3 of the result over it, as the body slices them. -/
abbrev tabK (L : grid0.Coords) (r : Fin 8) : Memref sig .scVector .hbm S32x1024 .f32 :=
  tabOf (k0_off1 L (BitVec.ofNat 32 (32 * r.val))) (k0_off1_inb L r)
abbrev outK0 (L : grid0.Coords) (r : Fin 8) : Memref sig .scVector .hbm S32x1024 .f32 :=
  outOf (k0_off2 L (BitVec.ofNat 32 (32 * r.val))) (k0_off2_inb L r)
abbrev outK1 (L : grid0.Coords) (r : Fin 8) : Memref sig .scVector .hbm S32x1024 .f32 :=
  outOf (k0_off3 L (BitVec.ofNat 32 (32 * r.val))) (k0_off3_inb L r)
abbrev outK2 (L : grid0.Coords) (r : Fin 8) : Memref sig .scVector .hbm S32x1024 .f32 :=
  outOf (k0_off4 L (BitVec.ofNat 32 (32 * r.val))) (k0_off4_inb L r)
abbrev outK3 (L : grid0.Coords) (r : Fin 8) : Memref sig .scVector .hbm S32x1024 .f32 :=
  outOf (k0_off5 L (BitVec.ofNat 32 (32 * r.val))) (k0_off5_inb L r)
/-- The three slots of the staging buffer. -/
abbrev slot0 : Memref sig .scVector .vmem S32x1024 .f32 := slotOf ![0, 0, 0] inb_S3x32x1024_S1x32x1024_0_0_0
abbrev slot1 : Memref sig .scVector .vmem S32x1024 .f32 := slotOf ![1, 0, 0] inb_S3x32x1024_S1x32x1024_1_0_0
abbrev slot2 : Memref sig .scVector .vmem S32x1024 .f32 := slotOf ![2, 0, 0] inb_S3x32x1024_S1x32x1024_2_0_0
/-- The six semaphores: per slot one the loads land on, one the stores land on. -/
abbrev inSem0 : DmaSem sig := ((cc0_scratch1.slice (Rect.unit (s := S3) ![0] S1.size inb_S3_S1_0)).squeeze S_ squeezes_S1_S_).sem
abbrev inSem1 : DmaSem sig := ((cc0_scratch1.slice (Rect.unit (s := S3) ![1] S1.size inb_S3_S1_1)).squeeze S_ squeezes_S1_S_).sem
abbrev inSem2 : DmaSem sig := ((cc0_scratch1.slice (Rect.unit (s := S3) ![2] S1.size inb_S3_S1_2)).squeeze S_ squeezes_S1_S_).sem
abbrev outSem0 : DmaSem sig := ((cc0_scratch2.slice (Rect.unit (s := S3) ![0] S1.size inb_S3_S1_0)).squeeze S_ squeezes_S1_S_).sem
abbrev outSem1 : DmaSem sig := ((cc0_scratch2.slice (Rect.unit (s := S3) ![1] S1.size inb_S3_S1_1)).squeeze S_ squeezes_S1_S_).sem
abbrev outSem2 : DmaSem sig := ((cc0_scratch2.slice (Rect.unit (s := S3) ![2] S1.size inb_S3_S1_2)).squeeze S_ squeezes_S1_S_).sem

/-! ## The element sets -/

/-- The elements of chunk `r` of the table, and of the piece of batch entry `b` of the result over it. -/
abbrev tabSet (L : grid0.Coords) (r : Fin 8) : Finset S8192x1024.Idx := (tabK L r).view.set
def outSet (L : grid0.Coords) (r : Fin 8) : Fin 4 → Finset S4x8192x1024.Idx
  | ⟨0, _⟩ => (outK0 L r).view.set
  | ⟨1, _⟩ => (outK1 L r).view.set
  | ⟨2, _⟩ => (outK2 L r).view.set
  | ⟨3, _⟩ => (outK3 L r).view.set

theorem off1_0 (L : grid0.Coords) (r : Fin 8) : (k0_off1 L (BitVec.ofNat 32 (32 * r.val))) 0 = rowOf L r := by rw [k0_off1_eq]; rfl
theorem off1_1 (L : grid0.Coords) (r : Fin 8) : (k0_off1 L (BitVec.ofNat 32 (32 * r.val))) 1 = 0 := by rw [k0_off1_eq]; rfl
theorem off2_0 (L : grid0.Coords) (r : Fin 8) : (k0_off2 L (BitVec.ofNat 32 (32 * r.val))) 0 = 0 := by rw [k0_off2_eq]; rfl
theorem off2_1 (L : grid0.Coords) (r : Fin 8) : (k0_off2 L (BitVec.ofNat 32 (32 * r.val))) 1 = rowOf L r := by rw [k0_off2_eq]; rfl
theorem off2_2 (L : grid0.Coords) (r : Fin 8) : (k0_off2 L (BitVec.ofNat 32 (32 * r.val))) 2 = 0 := by rw [k0_off2_eq]; rfl
theorem off3_0 (L : grid0.Coords) (r : Fin 8) : (k0_off3 L (BitVec.ofNat 32 (32 * r.val))) 0 = 1 := by rw [k0_off3_eq]; rfl
theorem off3_1 (L : grid0.Coords) (r : Fin 8) : (k0_off3 L (BitVec.ofNat 32 (32 * r.val))) 1 = rowOf L r := by rw [k0_off3_eq]; rfl
theorem off3_2 (L : grid0.Coords) (r : Fin 8) : (k0_off3 L (BitVec.ofNat 32 (32 * r.val))) 2 = 0 := by rw [k0_off3_eq]; rfl
theorem off4_0 (L : grid0.Coords) (r : Fin 8) : (k0_off4 L (BitVec.ofNat 32 (32 * r.val))) 0 = 2 := by rw [k0_off4_eq]; rfl
theorem off4_1 (L : grid0.Coords) (r : Fin 8) : (k0_off4 L (BitVec.ofNat 32 (32 * r.val))) 1 = rowOf L r := by rw [k0_off4_eq]; rfl
theorem off4_2 (L : grid0.Coords) (r : Fin 8) : (k0_off4 L (BitVec.ofNat 32 (32 * r.val))) 2 = 0 := by rw [k0_off4_eq]; rfl
theorem off5_0 (L : grid0.Coords) (r : Fin 8) : (k0_off5 L (BitVec.ofNat 32 (32 * r.val))) 0 = 3 := by rw [k0_off5_eq]; rfl
theorem off5_1 (L : grid0.Coords) (r : Fin 8) : (k0_off5 L (BitVec.ofNat 32 (32 * r.val))) 1 = rowOf L r := by rw [k0_off5_eq]; rfl
theorem off5_2 (L : grid0.Coords) (r : Fin 8) : (k0_off5 L (BitVec.ofNat 32 (32 * r.val))) 2 = 0 := by rw [k0_off5_eq]; rfl

/-- A table element is in chunk `r` of the subcore at `L` exactly when its row is one of the chunk's 32. -/
theorem mem_tabSet (L : grid0.Coords) (r : Fin 8) (i : S8192x1024.Idx) :
    i ∈ tabSet L r ↔ rowOf L r ≤ (i 0 : Nat) ∧ (i 0 : Nat) < rowOf L r + 32 := by
  rw [show tabSet L r = (tabK L r).view.set from rfl, mem_tabOf_set _ _ (off1_1 L r), off1_0]

/-- A result element is in the piece of batch entry `b` over that chunk exactly when its batch coordinate is `b` and
    its row is one of the chunk's 32. -/
theorem mem_outSet (L : grid0.Coords) (r : Fin 8) (b : Fin 4) (i : S4x8192x1024.Idx) :
    i ∈ outSet L r b ↔ (i 0 : Nat) = b.val ∧ rowOf L r ≤ (i 1 : Nat) ∧ (i 1 : Nat) < rowOf L r + 32 := by
  match b with
  | ⟨0, _⟩ => rw [show outSet L r ⟨0, _⟩ = (outK0 L r).view.set from rfl, mem_outOf_set _ _ (off2_2 L r), off2_0, off2_1]
  | ⟨1, _⟩ => rw [show outSet L r ⟨1, _⟩ = (outK1 L r).view.set from rfl, mem_outOf_set _ _ (off3_2 L r), off3_0, off3_1]
  | ⟨2, _⟩ => rw [show outSet L r ⟨2, _⟩ = (outK2 L r).view.set from rfl, mem_outOf_set _ _ (off4_2 L r), off4_0, off4_1]
  | ⟨3, _⟩ => rw [show outSet L r ⟨3, _⟩ = (outK3 L r).view.set from rfl, mem_outOf_set _ _ (off5_2 L r), off5_0, off5_1]

/-- The owners of the table's chunks: SparseCore, vector subcore, chunk. -/
abbrev Own3 : Type := Fin 2 × Fin 16 × Fin 8
/-- The owners of the result's pieces: SparseCore, vector subcore, chunk, batch entry. -/
abbrev Own4 : Type := Fin 2 × Fin 16 × Fin 8 × Fin 4

abbrev tabFam (t : Own3) : Finset S8192x1024.Idx := tabSet (coordsV t.1 t.2.1) t.2.2
abbrev outFam (t : Own4) : Finset S4x8192x1024.Idx := outSet (coordsV t.1 t.2.1) t.2.2.1 t.2.2.2

theorem rowOf_coordsV (c : Fin 2) (s : Fin 16) (r : Fin 8) : rowOf (coordsV c s) r = 512 * s.val + 256 * c.val + 32 * r.val := rfl

/-- Two different owners' chunks share no row: chunk `(c, s, r)` is the rows `32·(16 s + 8 c + r) …`. -/
theorem tab_disjoint : ∀ t ∈ (Finset.univ : Finset Own3), ∀ t' ∈ (Finset.univ : Finset Own3), t ≠ t' → Disjoint (tabFam t) (tabFam t') := by
  rintro ⟨c, s, r⟩ - ⟨c', s', r'⟩ - hne
  refine Finset.disjoint_left.mpr fun i hi hi' => hne ?_
  rw [mem_tabSet, rowOf_coordsV] at hi hi'
  dsimp only at hi hi'
  have hc := c.isLt; have hc' := c'.isLt; have hs := s.isLt; have hs' := s'.isLt; have hr := r.isLt; have hr' := r'.isLt
  have e1 : c.val = c'.val := by omega
  have e2 : s.val = s'.val := by omega
  have e3 : r.val = r'.val := by omega
  exact Prod.ext (Fin.ext e1) (Prod.ext (Fin.ext e2) (Fin.ext e3))

/-- Every row of the table is in some owner's chunk. -/
theorem tab_cover : (Finset.univ : Finset Own3).biUnion tabFam = Finset.univ := by
  refine Finset.eq_univ_iff_forall.mpr fun i => Finset.mem_biUnion.mpr ?_
  have hi : (i 0 : Nat) < 8192 := (i 0).isLt
  refine ⟨(⟨(i 0 : Nat) / 256 % 2, by omega⟩, ⟨(i 0 : Nat) / 512, by omega⟩, ⟨(i 0 : Nat) / 32 % 8, by omega⟩), Finset.mem_univ _, ?_⟩
  rw [mem_tabSet, rowOf_coordsV]
  show 512 * ((i 0 : Nat) / 512) + 256 * ((i 0 : Nat) / 256 % 2) + 32 * ((i 0 : Nat) / 32 % 8) ≤ (i 0 : Nat)
    ∧ (i 0 : Nat) < 512 * ((i 0 : Nat) / 512) + 256 * ((i 0 : Nat) / 256 % 2) + 32 * ((i 0 : Nat) / 32 % 8) + 32
  omega

theorem out_disjoint : ∀ t ∈ (Finset.univ : Finset Own4), ∀ t' ∈ (Finset.univ : Finset Own4), t ≠ t' → Disjoint (outFam t) (outFam t') := by
  rintro ⟨c, s, r, b⟩ - ⟨c', s', r', b'⟩ - hne
  refine Finset.disjoint_left.mpr fun i hi hi' => hne ?_
  rw [mem_outSet, rowOf_coordsV] at hi hi'
  dsimp only at hi hi'
  have hc := c.isLt; have hc' := c'.isLt; have hs := s.isLt; have hs' := s'.isLt; have hr := r.isLt; have hr' := r'.isLt
  have e0 : b.val = b'.val := by omega
  have e1 : c.val = c'.val := by omega
  have e2 : s.val = s'.val := by omega
  have e3 : r.val = r'.val := by omega
  exact Prod.ext (Fin.ext e1) (Prod.ext (Fin.ext e2) (Prod.ext (Fin.ext e3) (Fin.ext e0)))

theorem out_cover : (Finset.univ : Finset Own4).biUnion outFam = Finset.univ := by
  refine Finset.eq_univ_iff_forall.mpr fun i => Finset.mem_biUnion.mpr ?_
  have hi : (i 1 : Nat) < 8192 := (i 1).isLt
  have hb : (i 0 : Nat) < 4 := (i 0).isLt
  refine ⟨(⟨(i 1 : Nat) / 256 % 2, by omega⟩, ⟨(i 1 : Nat) / 512, by omega⟩, ⟨(i 1 : Nat) / 32 % 8, by omega⟩, ⟨(i 0 : Nat), hb⟩), Finset.mem_univ _, ?_⟩
  rw [mem_outSet, rowOf_coordsV]
  show (i 0 : Nat) = (i 0 : Nat) ∧ 512 * ((i 1 : Nat) / 512) + 256 * ((i 1 : Nat) / 256 % 2) + 32 * ((i 1 : Nat) / 32 % 8) ≤ (i 1 : Nat)
    ∧ (i 1 : Nat) < 512 * ((i 1 : Nat) / 512) + 256 * ((i 1 : Nat) / 256 % 2) + 32 * ((i 1 : Nat) / 32 % 8) + 32
  omega

theorem mem_slot0 (i : S3x32x1024.Idx) : i ∈ slot0.view.set ↔ (i 0 : Nat) = 0 :=
  mem_slotOf_set ![0, 0, 0] inb_S3x32x1024_S1x32x1024_0_0_0 rfl rfl i
theorem mem_slot1 (i : S3x32x1024.Idx) : i ∈ slot1.view.set ↔ (i 0 : Nat) = 1 :=
  mem_slotOf_set ![1, 0, 0] inb_S3x32x1024_S1x32x1024_1_0_0 rfl rfl i
theorem mem_slot2 (i : S3x32x1024.Idx) : i ∈ slot2.view.set ↔ (i 0 : Nat) = 2 :=
  mem_slotOf_set ![2, 0, 0] inb_S3x32x1024_S1x32x1024_2_0_0 rfl rfl i

/-- The three slots are the staging buffer: an element is in the slot its first coordinate names. -/
theorem slots_cover : (Finset.univ : Finset S3x32x1024.Idx) = slot0.view.set ∪ (slot1.view.set ∪ slot2.view.set) := by
  ext i
  have hi : (i 0 : Nat) < 3 := (i 0).isLt
  rw [Finset.mem_union, Finset.mem_union, mem_slot0, mem_slot1, mem_slot2]
  simp only [Finset.mem_univ, true_iff]
  omega
theorem slots_disj12 : Disjoint slot1.view.set slot2.view.set :=
  Finset.disjoint_left.mpr fun i h1 h2 => by
    rw [mem_slot1] at h1; rw [mem_slot2] at h2
    omega
theorem slots_disj0 : Disjoint slot0.view.set (slot1.view.set ∪ slot2.view.set) :=
  Finset.disjoint_left.mpr fun i h0 h => by
    rw [mem_slot0] at h0
    rcases Finset.mem_union.mp h with h | h
    · rw [mem_slot1] at h; omega
    · rw [mem_slot2] at h; omega

/-! ## What a vector subcore is handed, and what it hands back -/

variable (m : (ℓ : Loc nD τ sig) → Buf (Elt F) ℓ) (ρ : Dev nD → PrngReg)

/-- A window held, by exactly its own elements, by the vector subcore at `L`. -/
abbrev own (d : Dev nD) (L : grid0.Coords) {sp : Space} (M : Memref sig .scVector sp S32x1024 .f32)
    (f : Buf (Elt F) (M.view.loc (V d (cV L) (jV L)))) : sProp 𝕄 :=
  M.view.loc (V d (cV L) (jV L)) ↦[M.view.set]{fullShare} f

/-- Chunk `r`'s share: the chunk of the table at contents `fx`, the four pieces of the result over it at `fo`. -/
abbrev chunkPts (d : Dev nD) (L : grid0.Coords) (r : Fin 8) (fx : Buf (Elt F) (xLoc d)) (fo : Buf (Elt F) (oLoc d)) : sProp 𝕄 :=
  iprop(own d L (tabK L r) fx ∗ own d L (outK0 L r) fo ∗ own d L (outK1 L r) fo ∗ own d L (outK2 L r) fo ∗ own d L (outK3 L r) fo)

/-- A vector subcore's share: its eight chunks. -/
def tilePts (d : Dev nD) (L : grid0.Coords) (fx : Buf (Elt F) (xLoc d)) (fo : Buf (Elt F) (oLoc d)) : sProp 𝕄 :=
  bigSep Finset.univ fun r : Fin 8 => chunkPts d L r fx fo

instance tilePts_storable (d : Dev nD) (L : grid0.Coords) (fx : Buf (Elt F) (xLoc d)) (fo : Buf (Elt F) (oLoc d)) :
    BI.Storable (upEmb : UEmb _ 𝕄) (tilePts d L fx fo) := by unfold tilePts; infer_instance

/-- A SparseCore's share: its sixteen vector subcores'. -/
def corePts (d : Dev nD) (c : Fin 2) (fx : Buf (Elt F) (xLoc d)) (fo : Buf (Elt F) (oLoc d)) : sProp 𝕄 :=
  bigSep Finset.univ fun i : Fin 16 => tilePts d (coordsV c i) fx fo

instance corePts_storable (d : Dev nD) (c : Fin 2) (fx : Buf (Elt F) (xLoc d)) (fo : Buf (Elt F) (oLoc d)) :
    BI.Storable (upEmb : UEmb _ 𝕄) (corePts d c fx fo) := by unfold corePts tilePts; infer_instance

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A chunk's share, by element sets: the table's chunk and, for each batch entry, the piece of the result over it. -/
theorem chunkPts_eq (d : Dev nD) (L : grid0.Coords) (r : Fin 8) (fx : Buf (Elt F) (xLoc d)) (fo : Buf (Elt F) (oLoc d)) :
    chunkPts d L r fx fo = iprop((xLoc d ↦[tabSet L r]{fullShare} fx) ∗ bigSep Finset.univ fun b : Fin 4 => oLoc d ↦[outSet L r b]{fullShare} fo) := by
  rw [bigSep_fin4]; rfl

/-- The one call: SparseCore `c` takes the shares of its sixteen vector subcores, the table's chunks at the launch
    contents and the result's pieces at whatever the result held; it brings them back with every piece of the result
    holding the table's entries under it. Each vector subcore takes and brings back its own share. -/
def P : (K (F := F)).Pay (nD := nD) (Val := Elt F) (Name := ℕ) (U := UU) where
  st := fun q d c => corePts d (Fin.cast (nCore_any q) c) (m (xLoc d)) (m (oLoc d))
  dn := fun q d c => corePts d (Fin.cast (nCore_any q) c) (m (xLoc d)) (tiledAt d (m (xLoc d)))
  go := fun q d c i => tilePts d (coordsV (Fin.cast (nCore_any q) c) (Fin.cast (nSub_any q) i)) (m (xLoc d)) (m (oLoc d))
  td := fun q d c i => tilePts d (coordsV (Fin.cast (nCore_any q) c) (Fin.cast (nSub_any q) i)) (m (xLoc d)) (tiledAt d (m (xLoc d)))
  x := fun _ _ => iprop(emp)

/-- The record's fields, as equations to rewrite by. -/
theorem P_st (q : Fin 1) (d : Dev nD) (c : Fin ((K (F := F)).nCore q)) :
    (P m).st q d c = corePts d (Fin.cast (nCore_any q) c) (m (xLoc d)) (m (oLoc d)) := by unfold P; rfl
theorem P_dn (q : Fin 1) (d : Dev nD) (c : Fin ((K (F := F)).nCore q)) :
    (P m).dn q d c = corePts d (Fin.cast (nCore_any q) c) (m (xLoc d)) (tiledAt d (m (xLoc d))) := by unfold P; rfl
theorem P_go (q : Fin 1) (d : Dev nD) (c : Fin ((K (F := F)).nCore q)) (i : Fin ((K (F := F)).nSub q)) :
    (P m).go q d c i = tilePts d (coordsV (Fin.cast (nCore_any q) c) (Fin.cast (nSub_any q) i)) (m (xLoc d)) (m (oLoc d)) := by unfold P; rfl
theorem P_td (q : Fin 1) (d : Dev nD) (c : Fin ((K (F := F)).nCore q)) (i : Fin ((K (F := F)).nSub q)) :
    (P m).td q d c i = tilePts d (coordsV (Fin.cast (nCore_any q) c) (Fin.cast (nSub_any q) i)) (m (xLoc d)) (tiledAt d (m (xLoc d))) := by
  unfold P; rfl
theorem P_x (q : Fin 1) (thr : Thread nD τ) : (P m).x q thr = iprop(emp) := by unfold P; rfl

instance P_storable : (P (F := F) m).IsStorable where
  st q d c := by rw [P_st]; infer_instance
  dn q d c := by rw [P_dn]; infer_instance
  go q d c i := by rw [P_go]; infer_instance
  td q d c i := by rw [P_td]; infer_instance

end Cert.Proof.Kernel

end
-- ==== Proof.KernelBody.lean ====
/-
  One vector subcore's task: eight chunks of 32 rows, each loaded into a staging slot and stored from there to the four
  batch entries of the result.

  The subcore keeps three slots. Chunk `i` goes through slot `i mod 3`: its load lands on the slot's first semaphore,
  its four stores (one per batch entry, all reading the one slot) on the slot's second. Two loads are in flight ahead
  of the chunk being stored; a slot is loaded again only after the four stores that read it have been waited for, so
  no copy ever reads or writes a window another pending copy touches. Each wait hands back exactly what its copies
  held. At the end every piece of the result holds the slot's contents at the time of its store, which are the
  table chunk's: entry `y` of the window over entry `y` of the chunk.
-/
import proofs.«201523_g6305011990835_cont_9to1c4b_36_17_alg».proof.Proof.KernelSetup
import proofs.«201523_g6305011990835_cont_9to1c4b_36_17_alg».proof.Proof.Gen.Kernel.Skeleton

noncomputable section

namespace Cert.Proof.Kernel

open Cert.Kernel Cert.Kernel.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

/-- A semaphore of the vector subcore at `L`, as a cell. -/
abbrev cell (k : DmaSem sig) : GSem nD τ sig := (V d (cV L) (jV L), SemLoc.dma k)

theorem dma_scoped : ∀ k : DmaSem sig, (SemLoc.dma k : SemLoc sig).isScoped .scVector = true := by decide

theorem cell_mem (k : DmaSem sig) : cell d L k ∈ ownCells (V d (cV L) (jV L)) :=
  mem_ownCells.mpr ⟨rfl, dma_scoped k⟩
theorem cell_ne {a b : DmaSem sig} (h : a ≠ b) : cell d L a ≠ cell d L b :=
  fun e => h (SemLoc.dma.inj (Prod.mk.inj e).2)
theorem mem_erase_of {α : Type} [DecidableEq α] {s : Finset α} {a b : α} (h : a ≠ b) (hm : a ∈ s) : a ∈ s.erase b :=
  Finset.mem_erase.mpr ⟨h, hm⟩

/-- The subcore's six semaphores are among its own: they are them, at zero, and the rest. -/
theorem ownSems0_V :
    (ownSems0 (V d (cV L) (jV L)) : sProp 𝕄)
      = iprop(semVal (cell d L inSem0) 0 ∗ semVal (cell d L inSem1) 0 ∗ semVal (cell d L inSem2) 0
          ∗ semVal (cell d L outSem0) 0 ∗ semVal (cell d L outSem1) 0 ∗ semVal (cell d L outSem2) 0
          ∗ bigSep (((((((ownCells (V d (cV L) (jV L))).erase (cell d L inSem0)).erase (cell d L inSem1)).erase (cell d L inSem2)).erase
              (cell d L outSem0)).erase (cell d L outSem1)).erase (cell d L outSem2)) fun g => semVal g 0) := by
  unfold SparseCore.Cfg.ownSems0
  rw [SparseCore.bigSep_erase' (cell_mem d L inSem0),
    SparseCore.bigSep_erase' (mem_erase_of (cell_ne d L (by decide)) (cell_mem d L inSem1)),
    SparseCore.bigSep_erase' (mem_erase_of (cell_ne d L (by decide)) (mem_erase_of (cell_ne d L (by decide)) (cell_mem d L inSem2))),
    SparseCore.bigSep_erase' (mem_erase_of (cell_ne d L (by decide)) (mem_erase_of (cell_ne d L (by decide))
      (mem_erase_of (cell_ne d L (by decide)) (cell_mem d L outSem0)))),
    SparseCore.bigSep_erase' (mem_erase_of (cell_ne d L (by decide)) (mem_erase_of (cell_ne d L (by decide))
      (mem_erase_of (cell_ne d L (by decide)) (mem_erase_of (cell_ne d L (by decide)) (cell_mem d L outSem1))))),
    SparseCore.bigSep_erase' (mem_erase_of (cell_ne d L (by decide)) (mem_erase_of (cell_ne d L (by decide))
      (mem_erase_of (cell_ne d L (by decide)) (mem_erase_of (cell_ne d L (by decide)) (mem_erase_of (cell_ne d L (by decide)) (cell_mem d L outSem2))))))]

/-- The staging buffer is among the subcore's own buffers: it is that, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The staging buffer held whole is its three slots held each by its own elements; -/
theorem scratch_split (f : Buf (Elt F) ((V d (cV L) (jV L)).loc cc0_scratch0)) :
    ((V d (cV L) (jV L)).loc cc0_scratch0 ↦{fullShare} f : sProp 𝕄) ⊢ iprop(own d L slot0 f ∗ own d L slot1 f ∗ own d L slot2 f) := by
  iintro H
  ihave H' := (Entails.of_eq (show ((V d (cV L) (jV L)).loc cc0_scratch0 ↦{fullShare} f : sProp 𝕄)
      = (V d (cV L) (jV L)).loc cc0_scratch0 ↦[slot0.view.set ∪ (slot1.view.set ∪ slot2.view.set)]{fullShare} f from by rw [← slots_cover])) $$ H
  ihave H'' := (pointsTo_union slots_disj0).1 $$ H'
  icases H'' with ⟨H0, H12⟩
  ihave H3 := (pointsTo_union slots_disj12).1 $$ H12
  icases H3 with ⟨H1, H2⟩
  isplitl [H0]; · iexact H0
  isplitl [H1]; · iexact H1
  iexact H2

/-- and the three slots, at whatever each holds, are the staging buffer at some contents. -/
theorem scratch_join (f0 f1 f2 : Buf (Elt F) ((V d (cV L) (jV L)).loc cc0_scratch0)) :
    iprop(own d L slot0 f0 ∗ own d L slot1 f1 ∗ own d L slot2 f2) ⊢ (iprop(∃ f, (V d (cV L) (jV L)).loc cc0_scratch0 ↦{fullShare} f) : sProp 𝕄) := by
  iintro ⟨H0, H1, H2⟩
  ihave H12 := (pointsTo_join (ℓ := (V d (cV L) (jV L)).loc cc0_scratch0) (q := fullShare) (f := f1) (g := f2) slots_disj12) $$ [H1 H2]
  · isplitl [H1]; · iexact H1
    iexact H2
  ihave H := (pointsTo_join (ℓ := (V d (cV L) (jV L)).loc cc0_scratch0) (q := fullShare) (f := f0) slots_disj0) $$ [H0 H12]
  · isplitl [H0]; · iexact H0
    iexact H12
  rw [← slots_cover]
  iexists _; iexact H

/-- What a chunk's load and one of its stores leave in the piece of the result the store writes: the table's entries
    under it (`landed`), whichever slot the chunk went through and whatever that slot and the result held before. -/
theorem piece_done (off : Fin 3 → Nat) (h) (off' : Fin 2 → Nat) (h') (h1 : off 1 = off' 0) (h2 : off 2 = off' 1)
    (slot : Memref sig .scVector .vmem S32x1024 .f32) (fb : slot.view.ty.Contents (Elt F)) (older : List (View.Piece (Elt F) S32x1024 .f32))
    (fx : Buf (Elt F) (xLoc d)) (fo : Buf (Elt F) (oLoc d)) :
    own d L (outOf off h) ((outOf off h).view.writes (Elt F) fo
        [⟨Rect.whole S32x1024, ReadAs.same.apply (slot.view.read (Elt F) (slot.view.writes (Elt F) fb
          (⟨Rect.whole S32x1024, ReadAs.same.apply ((tabOf off' h').view.read (Elt F) fx)⟩ :: older)))⟩])
      ⊢ (own d L (outOf off h) (tiledAt d fx) : sProp 𝕄) :=
  Entails.of_eq (pointsTo_congr (landed off h off' h' h1 h2 slot fx fo fb older))

theorem piece0 (r : Fin 8) (slot : Memref sig .scVector .vmem S32x1024 .f32) (fb : slot.view.ty.Contents (Elt F))
    (older : List (View.Piece (Elt F) S32x1024 .f32)) (fx : Buf (Elt F) (xLoc d)) (fo : Buf (Elt F) (oLoc d)) :
    own d L (outK0 L r) ((outK0 L r).view.writes (Elt F) fo
        [⟨Rect.whole S32x1024, ReadAs.same.apply (slot.view.read (Elt F) (slot.view.writes (Elt F) fb
          (⟨Rect.whole S32x1024, ReadAs.same.apply ((tabK L r).view.read (Elt F) fx)⟩ :: older)))⟩])
      ⊢ (own d L (outK0 L r) (tiledAt d fx) : sProp 𝕄) :=
  piece_done d L _ _ _ _ ((off2_1 L r).trans (off1_0 L r).symm) ((off2_2 L r).trans (off1_1 L r).symm) slot fb older fx fo
theorem piece1 (r : Fin 8) (slot : Memref sig .scVector .vmem S32x1024 .f32) (fb : slot.view.ty.Contents (Elt F))
    (older : List (View.Piece (Elt F) S32x1024 .f32)) (fx : Buf (Elt F) (xLoc d)) (fo : Buf (Elt F) (oLoc d)) :
    own d L (outK1 L r) ((outK1 L r).view.writes (Elt F) fo
        [⟨Rect.whole S32x1024, ReadAs.same.apply (slot.view.read (Elt F) (slot.view.writes (Elt F) fb
          (⟨Rect.whole S32x1024, ReadAs.same.apply ((tabK L r).view.read (Elt F) fx)⟩ :: older)))⟩])
      ⊢ (own d L (outK1 L r) (tiledAt d fx) : sProp 𝕄) :=
  piece_done d L _ _ _ _ ((off3_1 L r).trans (off1_0 L r).symm) ((off3_2 L r).trans (off1_1 L r).symm) slot fb older fx fo
theorem piece2 (r : Fin 8) (slot : Memref sig .scVector .vmem S32x1024 .f32) (fb : slot.view.ty.Contents (Elt F))
    (older : List (View.Piece (Elt F) S32x1024 .f32)) (fx : Buf (Elt F) (xLoc d)) (fo : Buf (Elt F) (oLoc d)) :
    own d L (outK2 L r) ((outK2 L r).view.writes (Elt F) fo
        [⟨Rect.whole S32x1024, ReadAs.same.apply (slot.view.read (Elt F) (slot.view.writes (Elt F) fb
          (⟨Rect.whole S32x1024, ReadAs.same.apply ((tabK L r).view.read (Elt F) fx)⟩ :: older)))⟩])
      ⊢ (own d L (outK2 L r) (tiledAt d fx) : sProp 𝕄) :=
  piece_done d L _ _ _ _ ((off4_1 L r).trans (off1_0 L r).symm) ((off4_2 L r).trans (off1_1 L r).symm) slot fb older fx fo
theorem piece3 (r : Fin 8) (slot : Memref sig .scVector .vmem S32x1024 .f32) (fb : slot.view.ty.Contents (Elt F))
    (older : List (View.Piece (Elt F) S32x1024 .f32)) (fx : Buf (Elt F) (xLoc d)) (fo : Buf (Elt F) (oLoc d)) :
    own d L (outK3 L r) ((outK3 L r).view.writes (Elt F) fo
        [⟨Rect.whole S32x1024, ReadAs.same.apply (slot.view.read (Elt F) (slot.view.writes (Elt F) fb
          (⟨Rect.whole S32x1024, ReadAs.same.apply ((tabK L r).view.read (Elt F) fx)⟩ :: older)))⟩])
      ⊢ (own d L (outK3 L r) (tiledAt d fx) : sProp 𝕄) :=
  piece_done d L _ _ _ _ ((off5_1 L r).trans (off1_0 L r).symm) ((off5_2 L r).trans (off1_1 L r).symm) slot fb older fx fo

/-- A wait of the body's own, recorded on top of waits that are the launch's or the body's own, leaves such waits. -/
theorem waits_insert {W W' : Waits sig (HIx 1)} {a : SemLoc sig × HIx 1} (h : ∀ p ∈ W', p ∈ W ∨ p.2 = none) (ha : a.2 = none) :
    ∀ p ∈ insert a W', p ∈ W ∨ p.2 = none := by
  intro p hp
  rcases Finset.mem_insert.mp hp with rfl | hp
  · exact .inr ha
  · exact h p hp

variable [FloatOps F]

/-- One chunk's share handed back from its five hypotheses: the table's chunk as it was, and each of the four pieces of
    the result holding the table's entries under it (`piece0` … `piece3`). -/
local macro "chunk_back " d:term:max L:term:max r:num ht:ident h0:ident h1:ident h2:ident h3:ident : tactic =>
  `(tactic| (
    isplitl [$ht]
    iexact $ht
    isplitl [$h0]
    iapply (piece0 $d $L $r _ _ _ _ _)
    iexact $h0
    isplitl [$h1]
    iapply (piece1 $d $L $r _ _ _ _ _)
    iexact $h1
    isplitl [$h2]
    iapply (piece2 $d $L $r _ _ _ _ _)
    iexact $h2
    iapply (piece3 $d $L $r _ _ _ _ _)
    iexact $h3))

set_option maxHeartbeats 4000000 in
/-- The task of the vector subcore at `L`: from its eight chunks of the table and its thirty-two pieces of the result
    to the chunks unchanged and every piece holding the table's entries under it. The copies are followed in program
    order; the four stores that read one slot land on that slot's second semaphore together, and their four waits
    hand back, with the last, the slot and the four pieces. -/
theorem tile_body (hF : (K (F := F)).Facts) (O : CellTallies nD τ sig (HIx 1)) (W : Waits sig (HIx 1)) (hO : ∀ g, O g none = 0) :
    iprop(levAts (K (F := F)).L (K (F := F)).lev ∗ emp ∗ tilePts d L (m (xLoc d)) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_copy_kernel L xW (Memref.isWhole_whole _) oW (Memref.isWhole_whole _) bW (Memref.isWhole_whole _) cc0_scratch1 cc0_scratch2)
          fun _ => iprop(tilePts d L (m (xLoc d)) (tiledAt d (m (xLoc d))) ∗ scopedBufs (V d (cV L) (jV L)) ∗ scopedSems0 (V d (cV L) (jV L))
            ∗ ∃ W', ⌜∀ p ∈ W', p ∈ W ∨ p.2 = none⌝ ∗ owes (V d (cV L) (jV L)) O W') := by
  have _p0 : Transfers.BatchOf (V d (cV L) (jV L)) (SemLoc.dma (sig := sig) outSem0) 4 (windows := true) := trivial
  have _p1 : Transfers.BatchOf (V d (cV L) (jV L)) (SemLoc.dma (sig := sig) outSem1) 4 (windows := true) := trivial
  have _p2 : Transfers.BatchOf (V d (cV L) (jV L)) (SemLoc.dma (sig := sig) outSem2) 4 (windows := true) := trivial
  simp only [cc0_copy_kernel_eq_skeleton]; unfold cc0_copy_kernel_skel
  rw [(K (F := F)).scopedBufs_V hF d (cV L) (jV L), SparseCore.Cfg.scopedSems0_V (Val := Elt F) d (cV L) (jV L), ownSems0_V, ownBufs_V]
  unfold tilePts
  rw [bigSep_fin8, bigSep_fin8]
  iintro ⟨#Hlv, -, ⟨⟨Ht0, Ho0_0, Ho0_1, Ho0_2, Ho0_3⟩, ⟨Ht1, Ho1_0, Ho1_1, Ho1_2, Ho1_3⟩, ⟨Ht2, Ho2_0, Ho2_1, Ho2_2, Ho2_3⟩, ⟨Ht3, Ho3_0, Ho3_1, Ho3_2, Ho3_3⟩, ⟨Ht4, Ho4_0, Ho4_1, Ho4_2, Ho4_3⟩, ⟨Ht5, Ho5_0, Ho5_1, Ho5_2, Ho5_3⟩, ⟨Ht6, Ho6_0, Ho6_1, Ho6_2, Ho6_3⟩, ⟨Ht7, Ho7_0, Ho7_1, Ho7_2, Ho7_3⟩⟩, ⟨⟨%fb, Hb⟩, Hbufs⟩, ⟨Hi0, Hi1, Hi2, Hs0, Hs1, Hs2, Hsems⟩, HO⟩
  ihave Hmw := ((K (F := F)).mayWaits_none (thr := V d (cV L) (jV L)) hO) $$ Hlv
  ihave Hb' := (scratch_split (F := F) d L fb) $$ Hb
  icases Hb' with ⟨Hb0, Hb1, Hb2⟩
  sl_exec_parts
  sl_step
  isplitl [Ht0 Ho0_0 Ho0_1 Ho0_2 Ho0_3 Ht1 Ho1_0 Ho1_1 Ho1_2 Ho1_3 Ht2 Ho2_0 Ho2_1 Ho2_2 Ho2_3 Ht3 Ho3_0 Ho3_1 Ho3_2 Ho3_3
    Ht4 Ho4_0 Ho4_1 Ho4_2 Ho4_3 Ht5 Ho5_0 Ho5_1 Ho5_2 Ho5_3 Ht6 Ho6_0 Ho6_1 Ho6_2 Ho6_3 Ht7 Ho7_0 Ho7_1 Ho7_2 Ho7_3]
  · -- the eight chunks' shares, one after the other
    isplitl [Ht0 Ho0_0 Ho0_1 Ho0_2 Ho0_3]
    · chunk_back d L 0 Ht0 Ho0_0 Ho0_1 Ho0_2 Ho0_3
    isplitl [Ht1 Ho1_0 Ho1_1 Ho1_2 Ho1_3]
    · chunk_back d L 1 Ht1 Ho1_0 Ho1_1 Ho1_2 Ho1_3
    isplitl [Ht2 Ho2_0 Ho2_1 Ho2_2 Ho2_3]
    · chunk_back d L 2 Ht2 Ho2_0 Ho2_1 Ho2_2 Ho2_3
    isplitl [Ht3 Ho3_0 Ho3_1 Ho3_2 Ho3_3]
    · chunk_back d L 3 Ht3 Ho3_0 Ho3_1 Ho3_2 Ho3_3
    isplitl [Ht4 Ho4_0 Ho4_1 Ho4_2 Ho4_3]
    · chunk_back d L 4 Ht4 Ho4_0 Ho4_1 Ho4_2 Ho4_3
    isplitl [Ht5 Ho5_0 Ho5_1 Ho5_2 Ho5_3]
    · chunk_back d L 5 Ht5 Ho5_0 Ho5_1 Ho5_2 Ho5_3
    isplitl [Ht6 Ho6_0 Ho6_1 Ho6_2 Ho6_3]
    · chunk_back d L 6 Ht6 Ho6_0 Ho6_1 Ho6_2 Ho6_3
    chunk_back d L 7 Ht7 Ho7_0 Ho7_1 Ho7_2 Ho7_3
  isplitl [Hb0 Hb1 Hb2 Hbufs]
  · isplitl [Hb0 Hb1 Hb2]
    · iapply (scratch_join (F := F) d L _ _ _)
      isplitl [Hb0]; · iexact Hb0
      isplitl [Hb1]; · iexact Hb1
      iexact Hb2
    · iexact Hbufs
  isplitl [Hi0 Hi1 Hi2 Hs0 Hs1 Hs2 Hsems]
  · isplitl [Hi0]; · iexact Hi0
    isplitl [Hi1]; · iexact Hi1
    isplitl [Hi2]; · iexact Hi2
    isplitl [Hs0]; · iexact Hs0
    isplitl [Hs1]; · iexact Hs1
    isplitl [Hs2]; · iexact Hs2
    iexact Hsems
  iexists _; isplitr
  swap; · iexact HO
  ipureintro
  repeat (first | exact fun p hp => .inl hp | refine waits_insert ?_ rfl)

end Tile

end Cert.Proof.Kernel

end
-- ==== Proof.KernelLaunch.lean ====
/-
  The launch: the TensorCore hands the table and the result to the two SparseCores, each hands its sixteen vector
  subcores their shares, every subcore runs its task, and the shares come back: the table unchanged, the result
  holding a copy of the table in each batch entry.

  The table is the disjoint union of the 256 chunks and the result of the 1024 pieces (the set-up's two partitions), so
  "the whole array" and "every owner's share" are the same assertion read two ways; the split and the join are that
  equation, once for the table and once for the result.
-/
import proofs.«201523_g6305011990835_cont_9to1c4b_36_17_alg».proof.Proof.KernelBody
import proofs.«201523_g6305011990835_cont_9to1c4b_36_17_alg».proof.Defs

noncomputable section

namespace Cert.Proof.Kernel

open Cert.Kernel Cert.Kernel.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The whole arrays are the owners' shares -/

/-- The table whole is its 256 chunks, grouped by SparseCore, vector subcore and chunk. -/
theorem xPts_split (d : Dev nD) (f : Buf (Elt F) (xLoc d)) :
    (xLoc d ↦{fullShare} f : sProp 𝕄)
      = bigSep Finset.univ fun c : Fin 2 => bigSep Finset.univ fun s : Fin 16 => bigSep Finset.univ fun r : Fin 8 =>
          xLoc d ↦[tabSet (coordsV c s) r]{fullShare} f := by
  have e : (bigSep Finset.univ fun c : Fin 2 => bigSep Finset.univ fun s : Fin 16 => bigSep Finset.univ fun r : Fin 8 =>
      (xLoc d ↦[tabSet (coordsV c s) r]{fullShare} f : sProp 𝕄)) = bigSep (Finset.univ : Finset Own3) fun t => xLoc d ↦[tabFam t]{fullShare} f := by
    rw [bigSep_univ_prod (fun t : Own3 => (xLoc d ↦[tabFam t]{fullShare} f : sProp 𝕄))]
    refine bigSep_congr fun c _ => ?_
    rw [bigSep_univ_prod (fun p : Fin 16 × Fin 8 => (xLoc d ↦[tabFam (c, p)]{fullShare} f : sProp 𝕄))]
  rw [e, ← pointsTo_biUnion Finset.univ (ℓ := xLoc d) tabFam tab_disjoint, tab_cover]

/-- The result whole is its 1024 pieces, grouped by SparseCore, vector subcore, chunk and batch entry. -/
theorem oPts_split (d : Dev nD) (f : Buf (Elt F) (oLoc d)) :
    (oLoc d ↦{fullShare} f : sProp 𝕄)
      = bigSep Finset.univ fun c : Fin 2 => bigSep Finset.univ fun s : Fin 16 => bigSep Finset.univ fun r : Fin 8 =>
          bigSep Finset.univ fun b : Fin 4 => oLoc d ↦[outSet (coordsV c s) r b]{fullShare} f := by
  have e : (bigSep Finset.univ fun c : Fin 2 => bigSep Finset.univ fun s : Fin 16 => bigSep Finset.univ fun r : Fin 8 =>
      bigSep Finset.univ fun b : Fin 4 => (oLoc d ↦[outSet (coordsV c s) r b]{fullShare} f : sProp 𝕄))
        = bigSep (Finset.univ : Finset Own4) fun t => oLoc d ↦[outFam t]{fullShare} f := by
    rw [bigSep_univ_prod (fun t : Own4 => (oLoc d ↦[outFam t]{fullShare} f : sProp 𝕄))]
    refine bigSep_congr fun c _ => ?_
    rw [bigSep_univ_prod (fun p : Fin 16 × Fin 8 × Fin 4 => (oLoc d ↦[outFam (c, p)]{fullShare} f : sProp 𝕄))]
    refine bigSep_congr fun s _ => ?_
    rw [bigSep_univ_prod (fun p : Fin 8 × Fin 4 => (oLoc d ↦[outFam (c, s, p)]{fullShare} f : sProp 𝕄))]
  rw [e, ← pointsTo_biUnion Finset.univ (ℓ := oLoc d) outFam out_disjoint, out_cover]

/-- The two SparseCores' shares are the table and the result, whole. -/
theorem arrays_split (d : Dev nD) (fx : Buf (Elt F) (xLoc d)) (fo : Buf (Elt F) (oLoc d)) :
    (bigSep Finset.univ fun c : Fin 2 => corePts (F := F) d c fx fo) = iprop((xLoc d ↦{fullShare} fx) ∗ (oLoc d ↦{fullShare} fo)) := by
  rw [xPts_split, oPts_split, ← bigSep_sep']
  refine bigSep_congr fun c _ => ?_
  unfold corePts
  rw [← bigSep_sep']
  refine bigSep_congr fun s _ => ?_
  unfold tilePts
  rw [← bigSep_sep']
  exact bigSep_congr fun r _ => chunkPts_eq d (coordsV c s) r fx fo

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The launch theorem's obligations -/

variable [FloatOps F]

theorem defs₀_vector (c : Fin τ.nSC) (s : Fin τ.nSub) :
    defs₀ (F := F) (.scVector c s) 0 ()
      = SparseCore.onTile hcore0 hsub0 (fun c s => cc0_copy_kernel (coordsV c s)
          xW (Memref.isWhole_whole _) oW (Memref.isWhole_whole _) bW (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's share is its sixteen vector subcores' shares, going out and coming back. -/
theorem vecSplit : (K (F := F)).VecSplit' (P m) 0 := by
  intro d c
  have hgo : (bigSep Finset.univ fun i : Fin ((K (F := F)).nSub 0) => (P m).go 0 d c i)
      = corePts d (Fin.cast (nCore_any 0) c) (m (xLoc d)) (m (oLoc d)) := by
    unfold corePts
    exact (bigSep_congr fun i _ => P_go m 0 d c i).trans
      (bigSep_tasks (F := F) (fun i => tilePts d (coordsV (Fin.cast (nCore_any 0) c) i) (m (xLoc d)) (m (oLoc d))))
  have htd : (bigSep Finset.univ fun i : Fin ((K (F := F)).nSub 0) => (P m).td 0 d c i)
      = corePts d (Fin.cast (nCore_any 0) c) (m (xLoc d)) (tiledAt d (m (xLoc d))) := by
    unfold corePts
    exact (bigSep_congr fun i _ => P_td m 0 d c i).trans
      (bigSep_tasks (F := F) (fun i => tilePts d (coordsV (Fin.cast (nCore_any 0) c) i) (m (xLoc d)) (tiledAt d (m (xLoc d)))))
  rw [hgo, htd, P_st, P_dn]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for the two SparseCores, and what it hands back. -/
theorem st0_eq (d : Dev nD) : (bigSep Finset.univ fun c : Fin ((K (F := F)).nCore 0) => (P m).st 0 d c)
    = iprop((xLoc d ↦{fullShare} m (xLoc d)) ∗ (oLoc d ↦{fullShare} m (oLoc d))) := by
  simp only [P_st]
  rw [bigSep_cores (F := F) (fun c => corePts d c (m (xLoc d)) (m (oLoc d))), arrays_split]
theorem dn0_eq (d : Dev nD) : (bigSep Finset.univ fun c : Fin ((K (F := F)).nCore 0) => (P m).dn 0 d c)
    = iprop((xLoc d ↦{fullShare} m (xLoc d)) ∗ (oLoc d ↦{fullShare} tiledAt d (m (xLoc d)))) := by
  simp only [P_dn]
  rw [bigSep_cores (F := F) (fun c => corePts d c (m (xLoc d)) (tiledAt d (m (xLoc d)))), arrays_split]

/-- What @main leaves the claim: the two arguments at their launch contents, the result a copy of the table in each
    batch entry. -/
abbrev FIN (d : Dev nD) : sProp 𝕄 :=
  iprop((iLoc d ↦{fullShare} m (iLoc d)) ∗ (xLoc d ↦{fullShare} m (xLoc d)) ∗ (oLoc d ↦{fullShare} tiledAt d (m (xLoc d))))

/-- @main on device `d`'s TensorCore: the one call, from the table and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (oLoc d) = tiledAt d (m (xLoc d)) ∧ s'.mem.mem (iLoc d) = m (iLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := tiledAt d (m (xLoc d)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = tiledAt c (m (xLoc c)) ∧ r.2.mem (iLoc c) = m (iLoc c) ∧ r.2.mem (xLoc c) = m (xLoc c)

/-- Every weakly fair execution of the device's threads terminates, nothing faulting; the result ends a copy of the
    table in each batch entry, the two arguments unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.Kernel

end
-- ==== Proof.KernelIdealViews.lean ====
/-
  The views the kernel's body moves data through, and what one load followed by one store leaves.

  Each of the 32 vector subcores owns 256 consecutive rows of the table, in eight chunks of 32 rows. A chunk is
  loaded into one of three staging slots and from there stored to the same rows of each of the four batch entries
  of the result. A load's source is a 32 × 1024 window of the table starting at row `o`; a store's destination is the
  32 × 1024 window of batch entry `b` of the result starting at the same row `o`. Under the index map that drops the
  batch coordinate the destination's element `y` lies over the source's element `y`: that is all the value proof
  needs, because a copy writes element `y` of its source window to element `y` of its destination window.
-/
import proofs.«201523_g6305011990835_cont_9to1c4b_36_17_alg».proof.Proof.Gen.KernelIdeal
import proofs.«201523_g6305011990835_cont_9to1c4b_36_17_alg».proof.Proof.Spec
import Idealize.ShloMosaic.Lib.Writes

noncomputable section

namespace Cert.Proof.KernelIdeal

open Cert.KernelIdeal Cert.KernelIdeal.Gen
open Idealize.ShloMosaic
open Cert.Proof.Spec

variable {F : FTy → Type}

/-- The table, the result and the staging buffer, whole, as a vector subcore names them. -/
abbrev xW : Memref sig .scVector .hbm S8192x1024 .f32 := Memref.whole main_arg1_scv
abbrev oW : Memref sig .scVector .hbm S4x8192x1024 .f32 := Memref.whole main_v0_scv
abbrev bW : Memref sig .scVector .vmem S3x32x1024 .f32 := Memref.whole cc0_scratch0

/-- The 32 × 1024 window of the table at offsets `off`. -/
abbrev tabOf (off : Fin 2 → Nat) (h : ∀ a, off a + S32x1024.size a ≤ S8192x1024.size a) : Memref sig .scVector .hbm S32x1024 .f32 :=
  (xW).slice (Rect.unit (s := S8192x1024) off S32x1024.size h) (fun _ => rfl)
/-- The 1 × 32 × 1024 window of the result at offsets `off`, its leading unit axis dropped. -/
abbrev outOf (off : Fin 3 → Nat) (h : ∀ a, off a + S1x32x1024.size a ≤ S4x8192x1024.size a) : Memref sig .scVector .hbm S32x1024 .f32 :=
  ((oW).slice (Rect.unit (s := S4x8192x1024) off S1x32x1024.size h) (fun _ => rfl)).squeeze S32x1024 squeezes_S1x32x1024_S32x1024
/-- A slot of the staging buffer: the 1 × 32 × 1024 window at offsets `off`, its leading unit axis dropped. -/
abbrev slotOf (off : Fin 3 → Nat) (h : ∀ a, off a + S1x32x1024.size a ≤ S3x32x1024.size a) : Memref sig .scVector .vmem S32x1024 .f32 :=
  ((bW).slice (Rect.unit (s := S3x32x1024) off S1x32x1024.size h) (fun _ => rfl)).squeeze S32x1024 squeezes_S1x32x1024_S32x1024

/-- Where element `y` of a table window sits in the table: the offsets added coordinate by coordinate. -/
theorem tabOf_emb_val (off : Fin 2 → Nat) (h) (y : S32x1024.Idx) (a : Fin 2) :
    (((tabOf off h).view.emb y) a : Nat) = off a + (y a : Nat) := by
  show (((Rect.unit (s := S8192x1024) off S32x1024.size h).emb y) a : Nat) = _
  rw [Rect.emb_apply]; simp

/-- Where element `y` of a result window sits in the result: in the window's batch entry, the row and column offsets
    added to `y`'s two coordinates. -/
theorem outOf_emb_val (off : Fin 3 → Nat) (h) (y : S32x1024.Idx) :
    (((outOf off h).view.emb y) 0 : Nat) = off 0 ∧ (((outOf off h).view.emb y) 1 : Nat) = off 1 + (y 0 : Nat)
      ∧ (((outOf off h).view.emb y) 2 : Nat) = off 2 + (y 1 : Nat) := by
  have e : (Shape.reshapeEquiv (squeezes_S1x32x1024_S32x1024 : S1x32x1024.Squeezes S32x1024).numel_eq) y = Fin.cons ⟨0, Nat.one_pos⟩ y :=
    Shape.reshapeEquiv_cons_one (n := 2) (d := ![32, 1024]) _ y
  have k : ∀ a, (((outOf off h).view.emb y) a : Nat)
      = off a + ((Shape.reshapeEquiv (squeezes_S1x32x1024_S32x1024 : S1x32x1024.Squeezes S32x1024).numel_eq y) a : Nat) := by
    intro a
    show (((Rect.unit (s := S4x8192x1024) off S1x32x1024.size h).emb _) a : Nat) = _
    rw [Rect.emb_apply]; simp
  refine ⟨?_, ?_, ?_⟩
  · rw [k 0, e]; rfl
  · rw [k 1, e]; rfl
  · rw [k 2, e]; rfl

/-- A result window over a table window that starts at the same row, both at column 0: dropping the batch coordinate
    takes the result window's element `y` to the table window's element `y`. -/
theorem under_outOf (off : Fin 3 → Nat) (h) (off' : Fin 2 → Nat) (h') (h1 : off 1 = off' 0) (h2 : off 2 = off' 1) (y : S32x1024.Idx) :
    under ((outOf off h).view.emb y) = (tabOf off' h').view.emb y := by
  obtain ⟨-, e1, e2⟩ := outOf_emb_val off h y
  funext a
  match a with
  | ⟨0, _⟩ => exact Fin.ext (by rw [tabOf_emb_val]; show (((outOf off h).view.emb y) 1 : Nat) = _; rw [e1, h1]; rfl)
  | ⟨1, _⟩ => exact Fin.ext (by rw [tabOf_emb_val]; show (((outOf off h).view.emb y) 2 : Nat) = _; rw [e2, h2]; rfl)

/-- What a load of a table window into a staging slot, followed by a store of that slot to the result window over it,
    leaves in the result window: at every element of the window, the table's entry under it. The slot's earlier
    contents and its earlier loads do not matter (the load overwrites the whole slot), nor what the result held. -/
theorem landed (off : Fin 3 → Nat) (h) (off' : Fin 2 → Nat) (h') (h1 : off 1 = off' 0) (h2 : off 2 = off' 1)
    (slot : Memref sig .scVector .vmem S32x1024 .f32)
    (fx : STab.Idx → Elt F .f32) (fo : SOut.Idx → Elt F .f32) (fb : slot.view.ty.Contents (Elt F))
    (older : List (View.Piece (Elt F) S32x1024 .f32)) :
    ∀ i ∈ (outOf off h).view.set,
      (outOf off h).view.writes (Elt F) fo
          [⟨Rect.whole S32x1024, ReadAs.same.apply (slot.view.read (Elt F) (slot.view.writes (Elt F) fb
            (⟨Rect.whole S32x1024, ReadAs.same.apply ((tabOf off' h').view.read (Elt F) fx)⟩ :: older)))⟩] i
        = tiled fx i := by
  intro i hi
  obtain ⟨y, -, rfl⟩ := Finset.mem_map.mp hi
  have e : (Rect.whole S32x1024).emb y = y := by
    funext a; exact Fin.ext (by rw [Rect.emb_apply]; simp [Rect.whole])
  -- the slot, read back at `y`, holds the table window's element `y`
  have hslot := View.read_writes_cons_emb slot.view fb (Rect.whole S32x1024) (ReadAs.same.apply ((tabOf off' h').view.read (Elt F) fx)) older y
  rw [e] at hslot
  -- the result window, read back at `y`, holds what the slot read there
  have hdst := View.read_writes_cons_emb (outOf off h).view fo (Rect.whole S32x1024)
    (ReadAs.same.apply (slot.view.read (Elt F) (slot.view.writes (Elt F) fb
      (⟨Rect.whole S32x1024, ReadAs.same.apply ((tabOf off' h').view.read (Elt F) fx)⟩ :: older)))) [] y
  rw [e] at hdst
  have hd' := ((View.read_apply (v := (outOf off h).view) _ y).trans (cast_eq _ _)).symm.trans hdst
  refine hd'.trans ?_
  show slot.view.read (Elt F) _ y = _
  rw [hslot]
  show (tabOf off' h').view.read (Elt F) fx y = fx (under ((outOf off h).view.emb y))
  rw [under_outOf off h off' h' h1 h2 y]
  exact (View.read_apply (v := (tabOf off' h').view) _ y).trans (cast_eq _ _)

/-! ## The element sets -/

/-- A table window's elements: the rows from its row offset, 32 of them, when it starts at column 0. -/
theorem mem_tabOf_set (off : Fin 2 → Nat) (h) (h0 : off 1 = 0) (i : S8192x1024.Idx) :
    i ∈ (tabOf off h).view.set ↔ off 0 ≤ (i 0 : Nat) ∧ (i 0 : Nat) < off 0 + 32 := by
  have hs : (tabOf off h).view.set = (Rect.unit (s := S8192x1024) off S32x1024.size h).set := View.set_slice_whole _ _
  rw [hs, Rect.mem_set_unit]
  have hi1 : (i 1 : Nat) < 1024 := (i 1).isLt
  constructor
  · intro H; exact H (0 : Fin 2)
  · intro a b
    match b with
    | ⟨0, _⟩ => exact a
    | ⟨1, _⟩ =>
      show off 1 ≤ (i 1 : Nat) ∧ (i 1 : Nat) < off 1 + 1024
      rw [h0]; omega

/-- A result window's elements: its batch entry, the rows from its row offset, 32 of them, when it starts at
    column 0. -/
theorem mem_outOf_set (off : Fin 3 → Nat) (h) (h0 : off 2 = 0) (i : S4x8192x1024.Idx) :
    i ∈ (outOf off h).view.set ↔ (i 0 : Nat) = off 0 ∧ off 1 ≤ (i 1 : Nat) ∧ (i 1 : Nat) < off 1 + 32 := by
  have hs : (outOf off h).view.set = (Rect.unit (s := S4x8192x1024) off S1x32x1024.size h).set :=
    (View.set_reshape _ _).trans (View.set_slice_whole _ _)
  rw [hs, Rect.mem_set_unit]
  have hi2 : (i 2 : Nat) < 1024 := (i 2).isLt
  constructor
  · intro H
    have a : off 0 ≤ (i 0 : Nat) ∧ (i 0 : Nat) < off 0 + 1 := H (0 : Fin 3)
    have b : off 1 ≤ (i 1 : Nat) ∧ (i 1 : Nat) < off 1 + 32 := H (1 : Fin 3)
    exact ⟨by omega, b⟩
  · rintro ⟨a, b⟩ c
    match c with
    | ⟨0, _⟩ =>
      show off 0 ≤ (i 0 : Nat) ∧ (i 0 : Nat) < off 0 + 1
      omega
    | ⟨1, _⟩ => exact b
    | ⟨2, _⟩ =>
      show off 2 ≤ (i 2 : Nat) ∧ (i 2 : Nat) < off 2 + 1024
      rw [h0]; omega

/-- A staging slot's elements: those whose first coordinate is the slot's number. -/
theorem mem_slotOf_set (off : Fin 3 → Nat) (h) (h1 : off 1 = 0) (h2 : off 2 = 0) (i : S3x32x1024.Idx) :
    i ∈ (slotOf off h).view.set ↔ (i 0 : Nat) = off 0 := by
  have hs : (slotOf off h).view.set = (Rect.unit (s := S3x32x1024) off S1x32x1024.size h).set :=
    (View.set_reshape _ _).trans (View.set_slice_whole _ _)
  rw [hs, Rect.mem_set_unit]
  have hi1 : (i 1 : Nat) < 32 := (i 1).isLt
  have hi2 : (i 2 : Nat) < 1024 := (i 2).isLt
  constructor
  · intro H
    have a : off 0 ≤ (i 0 : Nat) ∧ (i 0 : Nat) < off 0 + 1 := H (0 : Fin 3)
    omega
  · intro a c
    match c with
    | ⟨0, _⟩ =>
      show off 0 ≤ (i 0 : Nat) ∧ (i 0 : Nat) < off 0 + 1
      omega
    | ⟨1, _⟩ =>
      show off 1 ≤ (i 1 : Nat) ∧ (i 1 : Nat) < off 1 + 32
      rw [h1]; omega
    | ⟨2, _⟩ =>
      show off 2 ≤ (i 2 : Nat) ∧ (i 2 : Nat) < off 2 + 1024
      rw [h2]; omega

end Cert.Proof.KernelIdeal

end
-- ==== Proof.KernelIdealSetup.lean ====
/-
  The kernel as a SparseCore launch: who holds what.

  The kernel copies the table into each of the four batch entries of the result. Its 32 vector subcores (two
  SparseCores of sixteen) each own 256 consecutive rows: subcore `s` of SparseCore `c` owns the rows from
  `512·s + 256·c`, in eight chunks of 32 rows. So the table splits into 2 · 16 · 8 = 256 chunks of 32 rows, one owner
  each, and the result into 4 · 256 pieces, the chunk's rows in each batch entry. A subcore is handed exactly its
  eight chunks of the table and its thirty-two pieces of the result; it hands the chunks back unchanged and every
  piece holding the table's entries under it. Nothing is shared, so nothing is raced for: the pieces are pairwise
  disjoint and together they are the whole arrays.
-/
import proofs.«201523_g6305011990835_cont_9to1c4b_36_17_alg».proof.Proof.KernelIdealViews
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KernelIdeal

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nCore_any (q : Fin 1) : (K (F := F)).nCore q = 2 := match q with | 0 => rfl
theorem nSub_any (q : Fin 1) : (K (F := F)).nSub q = 16 := match q with | 0 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The integer argument (unused by the kernel), the table and the result, as locations of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The result a copy of the table in each batch entry, as contents of the result's buffer on device `d`. -/
def tiledAt (d : Dev nD) (fx : Buf (Elt F) (xLoc d)) : Buf (Elt F) (oLoc d) := tiled fx
theorem tiledAt_eq (d : Dev nD) (fx : Buf (Elt F) (xLoc d)) : tiledAt d fx = tiled fx := rfl

/-! ## A vector subcore's windows -/

abbrev cV (L : grid0.Coords) : Fin τ.nSC := (L 0).castLE hcore0
abbrev jV (L : grid0.Coords) : Fin τ.nSub := (L 1).castLE hsub0

/-- The grid point of vector subcore `s` of SparseCore `c`, as the body table builds it. -/
def coordsV (c : Fin (grid0.bound 0)) (s : Fin (grid0.bound 1)) : grid0.Coords :=
  fun | 0 => c | 1 => s | ⟨_ + 2, h⟩ => absurd h (Nat.not_lt.2 (Nat.le_add_left _ _))

/-- The first row of chunk `r` of the subcore at `L`. -/
abbrev rowOf (L : grid0.Coords) (r : Fin 8) : Nat := 512 * (L 1).val + 256 * (L 0).val + 32 * r.val

/-- Chunk `r` of the table, and the piece of batch entry 0, 1, 2, 3 of the result over it, as the body slices them. -/
abbrev tabK (L : grid0.Coords) (r : Fin 8) : Memref sig .scVector .hbm S32x1024 .f32 :=
  tabOf (k0_off1 L (BitVec.ofNat 32 (32 * r.val))) (k0_off1_inb L r)
abbrev outK0 (L : grid0.Coords) (r : Fin 8) : Memref sig .scVector .hbm S32x1024 .f32 :=
  outOf (k0_off2 L (BitVec.ofNat 32 (32 * r.val))) (k0_off2_inb L r)
abbrev outK1 (L : grid0.Coords) (r : Fin 8) : Memref sig .scVector .hbm S32x1024 .f32 :=
  outOf (k0_off3 L (BitVec.ofNat 32 (32 * r.val))) (k0_off3_inb L r)
abbrev outK2 (L : grid0.Coords) (r : Fin 8) : Memref sig .scVector .hbm S32x1024 .f32 :=
  outOf (k0_off4 L (BitVec.ofNat 32 (32 * r.val))) (k0_off4_inb L r)
abbrev outK3 (L : grid0.Coords) (r : Fin 8) : Memref sig .scVector .hbm S32x1024 .f32 :=
  outOf (k0_off5 L (BitVec.ofNat 32 (32 * r.val))) (k0_off5_inb L r)
/-- The three slots of the staging buffer. -/
abbrev slot0 : Memref sig .scVector .vmem S32x1024 .f32 := slotOf ![0, 0, 0] inb_S3x32x1024_S1x32x1024_0_0_0
abbrev slot1 : Memref sig .scVector .vmem S32x1024 .f32 := slotOf ![1, 0, 0] inb_S3x32x1024_S1x32x1024_1_0_0
abbrev slot2 : Memref sig .scVector .vmem S32x1024 .f32 := slotOf ![2, 0, 0] inb_S3x32x1024_S1x32x1024_2_0_0
/-- The six semaphores: per slot one the loads land on, one the stores land on. -/
abbrev inSem0 : DmaSem sig := ((cc0_scratch1.slice (Rect.unit (s := S3) ![0] S1.size inb_S3_S1_0)).squeeze S_ squeezes_S1_S_).sem
abbrev inSem1 : DmaSem sig := ((cc0_scratch1.slice (Rect.unit (s := S3) ![1] S1.size inb_S3_S1_1)).squeeze S_ squeezes_S1_S_).sem
abbrev inSem2 : DmaSem sig := ((cc0_scratch1.slice (Rect.unit (s := S3) ![2] S1.size inb_S3_S1_2)).squeeze S_ squeezes_S1_S_).sem
abbrev outSem0 : DmaSem sig := ((cc0_scratch2.slice (Rect.unit (s := S3) ![0] S1.size inb_S3_S1_0)).squeeze S_ squeezes_S1_S_).sem
abbrev outSem1 : DmaSem sig := ((cc0_scratch2.slice (Rect.unit (s := S3) ![1] S1.size inb_S3_S1_1)).squeeze S_ squeezes_S1_S_).sem
abbrev outSem2 : DmaSem sig := ((cc0_scratch2.slice (Rect.unit (s := S3) ![2] S1.size inb_S3_S1_2)).squeeze S_ squeezes_S1_S_).sem

/-! ## The element sets -/

/-- The elements of chunk `r` of the table, and of the piece of batch entry `b` of the result over it. -/
abbrev tabSet (L : grid0.Coords) (r : Fin 8) : Finset S8192x1024.Idx := (tabK L r).view.set
def outSet (L : grid0.Coords) (r : Fin 8) : Fin 4 → Finset S4x8192x1024.Idx
  | ⟨0, _⟩ => (outK0 L r).view.set
  | ⟨1, _⟩ => (outK1 L r).view.set
  | ⟨2, _⟩ => (outK2 L r).view.set
  | ⟨3, _⟩ => (outK3 L r).view.set

theorem off1_0 (L : grid0.Coords) (r : Fin 8) : (k0_off1 L (BitVec.ofNat 32 (32 * r.val))) 0 = rowOf L r := by rw [k0_off1_eq]; rfl
theorem off1_1 (L : grid0.Coords) (r : Fin 8) : (k0_off1 L (BitVec.ofNat 32 (32 * r.val))) 1 = 0 := by rw [k0_off1_eq]; rfl
theorem off2_0 (L : grid0.Coords) (r : Fin 8) : (k0_off2 L (BitVec.ofNat 32 (32 * r.val))) 0 = 0 := by rw [k0_off2_eq]; rfl
theorem off2_1 (L : grid0.Coords) (r : Fin 8) : (k0_off2 L (BitVec.ofNat 32 (32 * r.val))) 1 = rowOf L r := by rw [k0_off2_eq]; rfl
theorem off2_2 (L : grid0.Coords) (r : Fin 8) : (k0_off2 L (BitVec.ofNat 32 (32 * r.val))) 2 = 0 := by rw [k0_off2_eq]; rfl
theorem off3_0 (L : grid0.Coords) (r : Fin 8) : (k0_off3 L (BitVec.ofNat 32 (32 * r.val))) 0 = 1 := by rw [k0_off3_eq]; rfl
theorem off3_1 (L : grid0.Coords) (r : Fin 8) : (k0_off3 L (BitVec.ofNat 32 (32 * r.val))) 1 = rowOf L r := by rw [k0_off3_eq]; rfl
theorem off3_2 (L : grid0.Coords) (r : Fin 8) : (k0_off3 L (BitVec.ofNat 32 (32 * r.val))) 2 = 0 := by rw [k0_off3_eq]; rfl
theorem off4_0 (L : grid0.Coords) (r : Fin 8) : (k0_off4 L (BitVec.ofNat 32 (32 * r.val))) 0 = 2 := by rw [k0_off4_eq]; rfl
theorem off4_1 (L : grid0.Coords) (r : Fin 8) : (k0_off4 L (BitVec.ofNat 32 (32 * r.val))) 1 = rowOf L r := by rw [k0_off4_eq]; rfl
theorem off4_2 (L : grid0.Coords) (r : Fin 8) : (k0_off4 L (BitVec.ofNat 32 (32 * r.val))) 2 = 0 := by rw [k0_off4_eq]; rfl
theorem off5_0 (L : grid0.Coords) (r : Fin 8) : (k0_off5 L (BitVec.ofNat 32 (32 * r.val))) 0 = 3 := by rw [k0_off5_eq]; rfl
theorem off5_1 (L : grid0.Coords) (r : Fin 8) : (k0_off5 L (BitVec.ofNat 32 (32 * r.val))) 1 = rowOf L r := by rw [k0_off5_eq]; rfl
theorem off5_2 (L : grid0.Coords) (r : Fin 8) : (k0_off5 L (BitVec.ofNat 32 (32 * r.val))) 2 = 0 := by rw [k0_off5_eq]; rfl

/-- A table element is in chunk `r` of the subcore at `L` exactly when its row is one of the chunk's 32. -/
theorem mem_tabSet (L : grid0.Coords) (r : Fin 8) (i : S8192x1024.Idx) :
    i ∈ tabSet L r ↔ rowOf L r ≤ (i 0 : Nat) ∧ (i 0 : Nat) < rowOf L r + 32 := by
  rw [show tabSet L r = (tabK L r).view.set from rfl, mem_tabOf_set _ _ (off1_1 L r), off1_0]

/-- A result element is in the piece of batch entry `b` over that chunk exactly when its batch coordinate is `b` and
    its row is one of the chunk's 32. -/
theorem mem_outSet (L : grid0.Coords) (r : Fin 8) (b : Fin 4) (i : S4x8192x1024.Idx) :
    i ∈ outSet L r b ↔ (i 0 : Nat) = b.val ∧ rowOf L r ≤ (i 1 : Nat) ∧ (i 1 : Nat) < rowOf L r + 32 := by
  match b with
  | ⟨0, _⟩ => rw [show outSet L r ⟨0, _⟩ = (outK0 L r).view.set from rfl, mem_outOf_set _ _ (off2_2 L r), off2_0, off2_1]
  | ⟨1, _⟩ => rw [show outSet L r ⟨1, _⟩ = (outK1 L r).view.set from rfl, mem_outOf_set _ _ (off3_2 L r), off3_0, off3_1]
  | ⟨2, _⟩ => rw [show outSet L r ⟨2, _⟩ = (outK2 L r).view.set from rfl, mem_outOf_set _ _ (off4_2 L r), off4_0, off4_1]
  | ⟨3, _⟩ => rw [show outSet L r ⟨3, _⟩ = (outK3 L r).view.set from rfl, mem_outOf_set _ _ (off5_2 L r), off5_0, off5_1]

/-- The owners of the table's chunks: SparseCore, vector subcore, chunk. -/
abbrev Own3 : Type := Fin 2 × Fin 16 × Fin 8
/-- The owners of the result's pieces: SparseCore, vector subcore, chunk, batch entry. -/
abbrev Own4 : Type := Fin 2 × Fin 16 × Fin 8 × Fin 4

abbrev tabFam (t : Own3) : Finset S8192x1024.Idx := tabSet (coordsV t.1 t.2.1) t.2.2
abbrev outFam (t : Own4) : Finset S4x8192x1024.Idx := outSet (coordsV t.1 t.2.1) t.2.2.1 t.2.2.2

theorem rowOf_coordsV (c : Fin 2) (s : Fin 16) (r : Fin 8) : rowOf (coordsV c s) r = 512 * s.val + 256 * c.val + 32 * r.val := rfl

/-- Two different owners' chunks share no row: chunk `(c, s, r)` is the rows `32·(16 s + 8 c + r) …`. -/
theorem tab_disjoint : ∀ t ∈ (Finset.univ : Finset Own3), ∀ t' ∈ (Finset.univ : Finset Own3), t ≠ t' → Disjoint (tabFam t) (tabFam t') := by
  rintro ⟨c, s, r⟩ - ⟨c', s', r'⟩ - hne
  refine Finset.disjoint_left.mpr fun i hi hi' => hne ?_
  rw [mem_tabSet, rowOf_coordsV] at hi hi'
  dsimp only at hi hi'
  have hc := c.isLt; have hc' := c'.isLt; have hs := s.isLt; have hs' := s'.isLt; have hr := r.isLt; have hr' := r'.isLt
  have e1 : c.val = c'.val := by omega
  have e2 : s.val = s'.val := by omega
  have e3 : r.val = r'.val := by omega
  exact Prod.ext (Fin.ext e1) (Prod.ext (Fin.ext e2) (Fin.ext e3))

/-- Every row of the table is in some owner's chunk. -/
theorem tab_cover : (Finset.univ : Finset Own3).biUnion tabFam = Finset.univ := by
  refine Finset.eq_univ_iff_forall.mpr fun i => Finset.mem_biUnion.mpr ?_
  have hi : (i 0 : Nat) < 8192 := (i 0).isLt
  refine ⟨(⟨(i 0 : Nat) / 256 % 2, by omega⟩, ⟨(i 0 : Nat) / 512, by omega⟩, ⟨(i 0 : Nat) / 32 % 8, by omega⟩), Finset.mem_univ _, ?_⟩
  rw [mem_tabSet, rowOf_coordsV]
  show 512 * ((i 0 : Nat) / 512) + 256 * ((i 0 : Nat) / 256 % 2) + 32 * ((i 0 : Nat) / 32 % 8) ≤ (i 0 : Nat)
    ∧ (i 0 : Nat) < 512 * ((i 0 : Nat) / 512) + 256 * ((i 0 : Nat) / 256 % 2) + 32 * ((i 0 : Nat) / 32 % 8) + 32
  omega

theorem out_disjoint : ∀ t ∈ (Finset.univ : Finset Own4), ∀ t' ∈ (Finset.univ : Finset Own4), t ≠ t' → Disjoint (outFam t) (outFam t') := by
  rintro ⟨c, s, r, b⟩ - ⟨c', s', r', b'⟩ - hne
  refine Finset.disjoint_left.mpr fun i hi hi' => hne ?_
  rw [mem_outSet, rowOf_coordsV] at hi hi'
  dsimp only at hi hi'
  have hc := c.isLt; have hc' := c'.isLt; have hs := s.isLt; have hs' := s'.isLt; have hr := r.isLt; have hr' := r'.isLt
  have e0 : b.val = b'.val := by omega
  have e1 : c.val = c'.val := by omega
  have e2 : s.val = s'.val := by omega
  have e3 : r.val = r'.val := by omega
  exact Prod.ext (Fin.ext e1) (Prod.ext (Fin.ext e2) (Prod.ext (Fin.ext e3) (Fin.ext e0)))

theorem out_cover : (Finset.univ : Finset Own4).biUnion outFam = Finset.univ := by
  refine Finset.eq_univ_iff_forall.mpr fun i => Finset.mem_biUnion.mpr ?_
  have hi : (i 1 : Nat) < 8192 := (i 1).isLt
  have hb : (i 0 : Nat) < 4 := (i 0).isLt
  refine ⟨(⟨(i 1 : Nat) / 256 % 2, by omega⟩, ⟨(i 1 : Nat) / 512, by omega⟩, ⟨(i 1 : Nat) / 32 % 8, by omega⟩, ⟨(i 0 : Nat), hb⟩), Finset.mem_univ _, ?_⟩
  rw [mem_outSet, rowOf_coordsV]
  show (i 0 : Nat) = (i 0 : Nat) ∧ 512 * ((i 1 : Nat) / 512) + 256 * ((i 1 : Nat) / 256 % 2) + 32 * ((i 1 : Nat) / 32 % 8) ≤ (i 1 : Nat)
    ∧ (i 1 : Nat) < 512 * ((i 1 : Nat) / 512) + 256 * ((i 1 : Nat) / 256 % 2) + 32 * ((i 1 : Nat) / 32 % 8) + 32
  omega

theorem mem_slot0 (i : S3x32x1024.Idx) : i ∈ slot0.view.set ↔ (i 0 : Nat) = 0 :=
  mem_slotOf_set ![0, 0, 0] inb_S3x32x1024_S1x32x1024_0_0_0 rfl rfl i
theorem mem_slot1 (i : S3x32x1024.Idx) : i ∈ slot1.view.set ↔ (i 0 : Nat) = 1 :=
  mem_slotOf_set ![1, 0, 0] inb_S3x32x1024_S1x32x1024_1_0_0 rfl rfl i
theorem mem_slot2 (i : S3x32x1024.Idx) : i ∈ slot2.view.set ↔ (i 0 : Nat) = 2 :=
  mem_slotOf_set ![2, 0, 0] inb_S3x32x1024_S1x32x1024_2_0_0 rfl rfl i

/-- The three slots are the staging buffer: an element is in the slot its first coordinate names. -/
theorem slots_cover : (Finset.univ : Finset S3x32x1024.Idx) = slot0.view.set ∪ (slot1.view.set ∪ slot2.view.set) := by
  ext i
  have hi : (i 0 : Nat) < 3 := (i 0).isLt
  rw [Finset.mem_union, Finset.mem_union, mem_slot0, mem_slot1, mem_slot2]
  simp only [Finset.mem_univ, true_iff]
  omega
theorem slots_disj12 : Disjoint slot1.view.set slot2.view.set :=
  Finset.disjoint_left.mpr fun i h1 h2 => by
    rw [mem_slot1] at h1; rw [mem_slot2] at h2
    omega
theorem slots_disj0 : Disjoint slot0.view.set (slot1.view.set ∪ slot2.view.set) :=
  Finset.disjoint_left.mpr fun i h0 h => by
    rw [mem_slot0] at h0
    rcases Finset.mem_union.mp h with h | h
    · rw [mem_slot1] at h; omega
    · rw [mem_slot2] at h; omega

/-! ## What a vector subcore is handed, and what it hands back -/

variable (m : (ℓ : Loc nD τ sig) → Buf (Elt F) ℓ) (ρ : Dev nD → PrngReg)

/-- A window held, by exactly its own elements, by the vector subcore at `L`. -/
abbrev own (d : Dev nD) (L : grid0.Coords) {sp : Space} (M : Memref sig .scVector sp S32x1024 .f32)
    (f : Buf (Elt F) (M.view.loc (V d (cV L) (jV L)))) : sProp 𝕄 :=
  M.view.loc (V d (cV L) (jV L)) ↦[M.view.set]{fullShare} f

/-- Chunk `r`'s share: the chunk of the table at contents `fx`, the four pieces of the result over it at `fo`. -/
abbrev chunkPts (d : Dev nD) (L : grid0.Coords) (r : Fin 8) (fx : Buf (Elt F) (xLoc d)) (fo : Buf (Elt F) (oLoc d)) : sProp 𝕄 :=
  iprop(own d L (tabK L r) fx ∗ own d L (outK0 L r) fo ∗ own d L (outK1 L r) fo ∗ own d L (outK2 L r) fo ∗ own d L (outK3 L r) fo)

/-- A vector subcore's share: its eight chunks. -/
def tilePts (d : Dev nD) (L : grid0.Coords) (fx : Buf (Elt F) (xLoc d)) (fo : Buf (Elt F) (oLoc d)) : sProp 𝕄 :=
  bigSep Finset.univ fun r : Fin 8 => chunkPts d L r fx fo

instance tilePts_storable (d : Dev nD) (L : grid0.Coords) (fx : Buf (Elt F) (xLoc d)) (fo : Buf (Elt F) (oLoc d)) :
    BI.Storable (upEmb : UEmb _ 𝕄) (tilePts d L fx fo) := by unfold tilePts; infer_instance

/-- A SparseCore's share: its sixteen vector subcores'. -/
def corePts (d : Dev nD) (c : Fin 2) (fx : Buf (Elt F) (xLoc d)) (fo : Buf (Elt F) (oLoc d)) : sProp 𝕄 :=
  bigSep Finset.univ fun i : Fin 16 => tilePts d (coordsV c i) fx fo

instance corePts_storable (d : Dev nD) (c : Fin 2) (fx : Buf (Elt F) (xLoc d)) (fo : Buf (Elt F) (oLoc d)) :
    BI.Storable (upEmb : UEmb _ 𝕄) (corePts d c fx fo) := by unfold corePts tilePts; infer_instance

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A chunk's share, by element sets: the table's chunk and, for each batch entry, the piece of the result over it. -/
theorem chunkPts_eq (d : Dev nD) (L : grid0.Coords) (r : Fin 8) (fx : Buf (Elt F) (xLoc d)) (fo : Buf (Elt F) (oLoc d)) :
    chunkPts d L r fx fo = iprop((xLoc d ↦[tabSet L r]{fullShare} fx) ∗ bigSep Finset.univ fun b : Fin 4 => oLoc d ↦[outSet L r b]{fullShare} fo) := by
  rw [bigSep_fin4]; rfl

/-- The one call: SparseCore `c` takes the shares of its sixteen vector subcores, the table's chunks at the launch
    contents and the result's pieces at whatever the result held; it brings them back with every piece of the result
    holding the table's entries under it. Each vector subcore takes and brings back its own share. -/
def P : (K (F := F)).Pay (nD := nD) (Val := Elt F) (Name := ℕ) (U := UU) where
  st := fun q d c => corePts d (Fin.cast (nCore_any q) c) (m (xLoc d)) (m (oLoc d))
  dn := fun q d c => corePts d (Fin.cast (nCore_any q) c) (m (xLoc d)) (tiledAt d (m (xLoc d)))
  go := fun q d c i => tilePts d (coordsV (Fin.cast (nCore_any q) c) (Fin.cast (nSub_any q) i)) (m (xLoc d)) (m (oLoc d))
  td := fun q d c i => tilePts d (coordsV (Fin.cast (nCore_any q) c) (Fin.cast (nSub_any q) i)) (m (xLoc d)) (tiledAt d (m (xLoc d)))
  x := fun _ _ => iprop(emp)

/-- The record's fields, as equations to rewrite by. -/
theorem P_st (q : Fin 1) (d : Dev nD) (c : Fin ((K (F := F)).nCore q)) :
    (P m).st q d c = corePts d (Fin.cast (nCore_any q) c) (m (xLoc d)) (m (oLoc d)) := by unfold P; rfl
theorem P_dn (q : Fin 1) (d : Dev nD) (c : Fin ((K (F := F)).nCore q)) :
    (P m).dn q d c = corePts d (Fin.cast (nCore_any q) c) (m (xLoc d)) (tiledAt d (m (xLoc d))) := by unfold P; rfl
theorem P_go (q : Fin 1) (d : Dev nD) (c : Fin ((K (F := F)).nCore q)) (i : Fin ((K (F := F)).nSub q)) :
    (P m).go q d c i = tilePts d (coordsV (Fin.cast (nCore_any q) c) (Fin.cast (nSub_any q) i)) (m (xLoc d)) (m (oLoc d)) := by unfold P; rfl
theorem P_td (q : Fin 1) (d : Dev nD) (c : Fin ((K (F := F)).nCore q)) (i : Fin ((K (F := F)).nSub q)) :
    (P m).td q d c i = tilePts d (coordsV (Fin.cast (nCore_any q) c) (Fin.cast (nSub_any q) i)) (m (xLoc d)) (tiledAt d (m (xLoc d))) := by
  unfold P; rfl
theorem P_x (q : Fin 1) (thr : Thread nD τ) : (P m).x q thr = iprop(emp) := by unfold P; rfl

instance P_storable : (P (F := F) m).IsStorable where
  st q d c := by rw [P_st]; infer_instance
  dn q d c := by rw [P_dn]; infer_instance
  go q d c i := by rw [P_go]; infer_instance
  td q d c i := by rw [P_td]; infer_instance

end Cert.Proof.KernelIdeal

end
-- ==== Proof.KernelIdealBody.lean ====
/-
  One vector subcore's task: eight chunks of 32 rows, each loaded into a staging slot and stored from there to the four
  batch entries of the result.

  The subcore keeps three slots. Chunk `i` goes through slot `i mod 3`: its load lands on the slot's first semaphore,
  its four stores (one per batch entry, all reading the one slot) on the slot's second. Two loads are in flight ahead
  of the chunk being stored; a slot is loaded again only after the four stores that read it have been waited for, so
  no copy ever reads or writes a window another pending copy touches. Each wait hands back exactly what its copies
  held. At the end every piece of the result holds the slot's contents at the time of its store, which are the
  table chunk's: entry `y` of the window over entry `y` of the chunk.
-/
import proofs.«201523_g6305011990835_cont_9to1c4b_36_17_alg».proof.Proof.KernelIdealSetup
import proofs.«201523_g6305011990835_cont_9to1c4b_36_17_alg».proof.Proof.Gen.KernelIdeal.Skeleton

noncomputable section

namespace Cert.Proof.KernelIdeal

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

/-- A semaphore of the vector subcore at `L`, as a cell. -/
abbrev cell (k : DmaSem sig) : GSem nD τ sig := (V d (cV L) (jV L), SemLoc.dma k)

theorem dma_scoped : ∀ k : DmaSem sig, (SemLoc.dma k : SemLoc sig).isScoped .scVector = true := by decide

theorem cell_mem (k : DmaSem sig) : cell d L k ∈ ownCells (V d (cV L) (jV L)) :=
  mem_ownCells.mpr ⟨rfl, dma_scoped k⟩
theorem cell_ne {a b : DmaSem sig} (h : a ≠ b) : cell d L a ≠ cell d L b :=
  fun e => h (SemLoc.dma.inj (Prod.mk.inj e).2)
theorem mem_erase_of {α : Type} [DecidableEq α] {s : Finset α} {a b : α} (h : a ≠ b) (hm : a ∈ s) : a ∈ s.erase b :=
  Finset.mem_erase.mpr ⟨h, hm⟩

/-- The subcore's six semaphores are among its own: they are them, at zero, and the rest. -/
theorem ownSems0_V :
    (ownSems0 (V d (cV L) (jV L)) : sProp 𝕄)
      = iprop(semVal (cell d L inSem0) 0 ∗ semVal (cell d L inSem1) 0 ∗ semVal (cell d L inSem2) 0
          ∗ semVal (cell d L outSem0) 0 ∗ semVal (cell d L outSem1) 0 ∗ semVal (cell d L outSem2) 0
          ∗ bigSep (((((((ownCells (V d (cV L) (jV L))).erase (cell d L inSem0)).erase (cell d L inSem1)).erase (cell d L inSem2)).erase
              (cell d L outSem0)).erase (cell d L outSem1)).erase (cell d L outSem2)) fun g => semVal g 0) := by
  unfold SparseCore.Cfg.ownSems0
  rw [SparseCore.bigSep_erase' (cell_mem d L inSem0),
    SparseCore.bigSep_erase' (mem_erase_of (cell_ne d L (by decide)) (cell_mem d L inSem1)),
    SparseCore.bigSep_erase' (mem_erase_of (cell_ne d L (by decide)) (mem_erase_of (cell_ne d L (by decide)) (cell_mem d L inSem2))),
    SparseCore.bigSep_erase' (mem_erase_of (cell_ne d L (by decide)) (mem_erase_of (cell_ne d L (by decide))
      (mem_erase_of (cell_ne d L (by decide)) (cell_mem d L outSem0)))),
    SparseCore.bigSep_erase' (mem_erase_of (cell_ne d L (by decide)) (mem_erase_of (cell_ne d L (by decide))
      (mem_erase_of (cell_ne d L (by decide)) (mem_erase_of (cell_ne d L (by decide)) (cell_mem d L outSem1))))),
    SparseCore.bigSep_erase' (mem_erase_of (cell_ne d L (by decide)) (mem_erase_of (cell_ne d L (by decide))
      (mem_erase_of (cell_ne d L (by decide)) (mem_erase_of (cell_ne d L (by decide)) (mem_erase_of (cell_ne d L (by decide)) (cell_mem d L outSem2))))))]

/-- The staging buffer is among the subcore's own buffers: it is that, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The staging buffer held whole is its three slots held each by its own elements; -/
theorem scratch_split (f : Buf (Elt F) ((V d (cV L) (jV L)).loc cc0_scratch0)) :
    ((V d (cV L) (jV L)).loc cc0_scratch0 ↦{fullShare} f : sProp 𝕄) ⊢ iprop(own d L slot0 f ∗ own d L slot1 f ∗ own d L slot2 f) := by
  iintro H
  ihave H' := (Entails.of_eq (show ((V d (cV L) (jV L)).loc cc0_scratch0 ↦{fullShare} f : sProp 𝕄)
      = (V d (cV L) (jV L)).loc cc0_scratch0 ↦[slot0.view.set ∪ (slot1.view.set ∪ slot2.view.set)]{fullShare} f from by rw [← slots_cover])) $$ H
  ihave H'' := (pointsTo_union slots_disj0).1 $$ H'
  icases H'' with ⟨H0, H12⟩
  ihave H3 := (pointsTo_union slots_disj12).1 $$ H12
  icases H3 with ⟨H1, H2⟩
  isplitl [H0]; · iexact H0
  isplitl [H1]; · iexact H1
  iexact H2

/-- and the three slots, at whatever each holds, are the staging buffer at some contents. -/
theorem scratch_join (f0 f1 f2 : Buf (Elt F) ((V d (cV L) (jV L)).loc cc0_scratch0)) :
    iprop(own d L slot0 f0 ∗ own d L slot1 f1 ∗ own d L slot2 f2) ⊢ (iprop(∃ f, (V d (cV L) (jV L)).loc cc0_scratch0 ↦{fullShare} f) : sProp 𝕄) := by
  iintro ⟨H0, H1, H2⟩
  ihave H12 := (pointsTo_join (ℓ := (V d (cV L) (jV L)).loc cc0_scratch0) (q := fullShare) (f := f1) (g := f2) slots_disj12) $$ [H1 H2]
  · isplitl [H1]; · iexact H1
    iexact H2
  ihave H := (pointsTo_join (ℓ := (V d (cV L) (jV L)).loc cc0_scratch0) (q := fullShare) (f := f0) slots_disj0) $$ [H0 H12]
  · isplitl [H0]; · iexact H0
    iexact H12
  rw [← slots_cover]
  iexists _; iexact H

/-- What a chunk's load and one of its stores leave in the piece of the result the store writes: the table's entries
    under it (`landed`), whichever slot the chunk went through and whatever that slot and the result held before. -/
theorem piece_done (off : Fin 3 → Nat) (h) (off' : Fin 2 → Nat) (h') (h1 : off 1 = off' 0) (h2 : off 2 = off' 1)
    (slot : Memref sig .scVector .vmem S32x1024 .f32) (fb : slot.view.ty.Contents (Elt F)) (older : List (View.Piece (Elt F) S32x1024 .f32))
    (fx : Buf (Elt F) (xLoc d)) (fo : Buf (Elt F) (oLoc d)) :
    own d L (outOf off h) ((outOf off h).view.writes (Elt F) fo
        [⟨Rect.whole S32x1024, ReadAs.same.apply (slot.view.read (Elt F) (slot.view.writes (Elt F) fb
          (⟨Rect.whole S32x1024, ReadAs.same.apply ((tabOf off' h').view.read (Elt F) fx)⟩ :: older)))⟩])
      ⊢ (own d L (outOf off h) (tiledAt d fx) : sProp 𝕄) :=
  Entails.of_eq (pointsTo_congr (landed off h off' h' h1 h2 slot fx fo fb older))

theorem piece0 (r : Fin 8) (slot : Memref sig .scVector .vmem S32x1024 .f32) (fb : slot.view.ty.Contents (Elt F))
    (older : List (View.Piece (Elt F) S32x1024 .f32)) (fx : Buf (Elt F) (xLoc d)) (fo : Buf (Elt F) (oLoc d)) :
    own d L (outK0 L r) ((outK0 L r).view.writes (Elt F) fo
        [⟨Rect.whole S32x1024, ReadAs.same.apply (slot.view.read (Elt F) (slot.view.writes (Elt F) fb
          (⟨Rect.whole S32x1024, ReadAs.same.apply ((tabK L r).view.read (Elt F) fx)⟩ :: older)))⟩])
      ⊢ (own d L (outK0 L r) (tiledAt d fx) : sProp 𝕄) :=
  piece_done d L _ _ _ _ ((off2_1 L r).trans (off1_0 L r).symm) ((off2_2 L r).trans (off1_1 L r).symm) slot fb older fx fo
theorem piece1 (r : Fin 8) (slot : Memref sig .scVector .vmem S32x1024 .f32) (fb : slot.view.ty.Contents (Elt F))
    (older : List (View.Piece (Elt F) S32x1024 .f32)) (fx : Buf (Elt F) (xLoc d)) (fo : Buf (Elt F) (oLoc d)) :
    own d L (outK1 L r) ((outK1 L r).view.writes (Elt F) fo
        [⟨Rect.whole S32x1024, ReadAs.same.apply (slot.view.read (Elt F) (slot.view.writes (Elt F) fb
          (⟨Rect.whole S32x1024, ReadAs.same.apply ((tabK L r).view.read (Elt F) fx)⟩ :: older)))⟩])
      ⊢ (own d L (outK1 L r) (tiledAt d fx) : sProp 𝕄) :=
  piece_done d L _ _ _ _ ((off3_1 L r).trans (off1_0 L r).symm) ((off3_2 L r).trans (off1_1 L r).symm) slot fb older fx fo
theorem piece2 (r : Fin 8) (slot : Memref sig .scVector .vmem S32x1024 .f32) (fb : slot.view.ty.Contents (Elt F))
    (older : List (View.Piece (Elt F) S32x1024 .f32)) (fx : Buf (Elt F) (xLoc d)) (fo : Buf (Elt F) (oLoc d)) :
    own d L (outK2 L r) ((outK2 L r).view.writes (Elt F) fo
        [⟨Rect.whole S32x1024, ReadAs.same.apply (slot.view.read (Elt F) (slot.view.writes (Elt F) fb
          (⟨Rect.whole S32x1024, ReadAs.same.apply ((tabK L r).view.read (Elt F) fx)⟩ :: older)))⟩])
      ⊢ (own d L (outK2 L r) (tiledAt d fx) : sProp 𝕄) :=
  piece_done d L _ _ _ _ ((off4_1 L r).trans (off1_0 L r).symm) ((off4_2 L r).trans (off1_1 L r).symm) slot fb older fx fo
theorem piece3 (r : Fin 8) (slot : Memref sig .scVector .vmem S32x1024 .f32) (fb : slot.view.ty.Contents (Elt F))
    (older : List (View.Piece (Elt F) S32x1024 .f32)) (fx : Buf (Elt F) (xLoc d)) (fo : Buf (Elt F) (oLoc d)) :
    own d L (outK3 L r) ((outK3 L r).view.writes (Elt F) fo
        [⟨Rect.whole S32x1024, ReadAs.same.apply (slot.view.read (Elt F) (slot.view.writes (Elt F) fb
          (⟨Rect.whole S32x1024, ReadAs.same.apply ((tabK L r).view.read (Elt F) fx)⟩ :: older)))⟩])
      ⊢ (own d L (outK3 L r) (tiledAt d fx) : sProp 𝕄) :=
  piece_done d L _ _ _ _ ((off5_1 L r).trans (off1_0 L r).symm) ((off5_2 L r).trans (off1_1 L r).symm) slot fb older fx fo

/-- A wait of the body's own, recorded on top of waits that are the launch's or the body's own, leaves such waits. -/
theorem waits_insert {W W' : Waits sig (HIx 1)} {a : SemLoc sig × HIx 1} (h : ∀ p ∈ W', p ∈ W ∨ p.2 = none) (ha : a.2 = none) :
    ∀ p ∈ insert a W', p ∈ W ∨ p.2 = none := by
  intro p hp
  rcases Finset.mem_insert.mp hp with rfl | hp
  · exact .inr ha
  · exact h p hp

variable [FloatOps F]

/-- One chunk's share handed back from its five hypotheses: the table's chunk as it was, and each of the four pieces of
    the result holding the table's entries under it (`piece0` … `piece3`). -/
local macro "chunk_back " d:term:max L:term:max r:num ht:ident h0:ident h1:ident h2:ident h3:ident : tactic =>
  `(tactic| (
    isplitl [$ht]
    iexact $ht
    isplitl [$h0]
    iapply (piece0 $d $L $r _ _ _ _ _)
    iexact $h0
    isplitl [$h1]
    iapply (piece1 $d $L $r _ _ _ _ _)
    iexact $h1
    isplitl [$h2]
    iapply (piece2 $d $L $r _ _ _ _ _)
    iexact $h2
    iapply (piece3 $d $L $r _ _ _ _ _)
    iexact $h3))

set_option maxHeartbeats 4000000 in
/-- The task of the vector subcore at `L`: from its eight chunks of the table and its thirty-two pieces of the result
    to the chunks unchanged and every piece holding the table's entries under it. The copies are followed in program
    order; the four stores that read one slot land on that slot's second semaphore together, and their four waits
    hand back, with the last, the slot and the four pieces. -/
theorem tile_body (hF : (K (F := F)).Facts) (O : CellTallies nD τ sig (HIx 1)) (W : Waits sig (HIx 1)) (hO : ∀ g, O g none = 0) :
    iprop(levAts (K (F := F)).L (K (F := F)).lev ∗ emp ∗ tilePts d L (m (xLoc d)) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_copy_kernel L xW (Memref.isWhole_whole _) oW (Memref.isWhole_whole _) bW (Memref.isWhole_whole _) cc0_scratch1 cc0_scratch2)
          fun _ => iprop(tilePts d L (m (xLoc d)) (tiledAt d (m (xLoc d))) ∗ scopedBufs (V d (cV L) (jV L)) ∗ scopedSems0 (V d (cV L) (jV L))
            ∗ ∃ W', ⌜∀ p ∈ W', p ∈ W ∨ p.2 = none⌝ ∗ owes (V d (cV L) (jV L)) O W') := by
  have _p0 : Transfers.BatchOf (V d (cV L) (jV L)) (SemLoc.dma (sig := sig) outSem0) 4 (windows := true) := trivial
  have _p1 : Transfers.BatchOf (V d (cV L) (jV L)) (SemLoc.dma (sig := sig) outSem1) 4 (windows := true) := trivial
  have _p2 : Transfers.BatchOf (V d (cV L) (jV L)) (SemLoc.dma (sig := sig) outSem2) 4 (windows := true) := trivial
  simp only [cc0_copy_kernel_eq_skeleton]; unfold cc0_copy_kernel_skel
  rw [(K (F := F)).scopedBufs_V hF d (cV L) (jV L), SparseCore.Cfg.scopedSems0_V (Val := Elt F) d (cV L) (jV L), ownSems0_V, ownBufs_V]
  unfold tilePts
  rw [bigSep_fin8, bigSep_fin8]
  iintro ⟨#Hlv, -, ⟨⟨Ht0, Ho0_0, Ho0_1, Ho0_2, Ho0_3⟩, ⟨Ht1, Ho1_0, Ho1_1, Ho1_2, Ho1_3⟩, ⟨Ht2, Ho2_0, Ho2_1, Ho2_2, Ho2_3⟩, ⟨Ht3, Ho3_0, Ho3_1, Ho3_2, Ho3_3⟩, ⟨Ht4, Ho4_0, Ho4_1, Ho4_2, Ho4_3⟩, ⟨Ht5, Ho5_0, Ho5_1, Ho5_2, Ho5_3⟩, ⟨Ht6, Ho6_0, Ho6_1, Ho6_2, Ho6_3⟩, ⟨Ht7, Ho7_0, Ho7_1, Ho7_2, Ho7_3⟩⟩, ⟨⟨%fb, Hb⟩, Hbufs⟩, ⟨Hi0, Hi1, Hi2, Hs0, Hs1, Hs2, Hsems⟩, HO⟩
  ihave Hmw := ((K (F := F)).mayWaits_none (thr := V d (cV L) (jV L)) hO) $$ Hlv
  ihave Hb' := (scratch_split (F := F) d L fb) $$ Hb
  icases Hb' with ⟨Hb0, Hb1, Hb2⟩
  sl_exec_parts
  sl_step
  isplitl [Ht0 Ho0_0 Ho0_1 Ho0_2 Ho0_3 Ht1 Ho1_0 Ho1_1 Ho1_2 Ho1_3 Ht2 Ho2_0 Ho2_1 Ho2_2 Ho2_3 Ht3 Ho3_0 Ho3_1 Ho3_2 Ho3_3
    Ht4 Ho4_0 Ho4_1 Ho4_2 Ho4_3 Ht5 Ho5_0 Ho5_1 Ho5_2 Ho5_3 Ht6 Ho6_0 Ho6_1 Ho6_2 Ho6_3 Ht7 Ho7_0 Ho7_1 Ho7_2 Ho7_3]
  · -- the eight chunks' shares, one after the other
    isplitl [Ht0 Ho0_0 Ho0_1 Ho0_2 Ho0_3]
    · chunk_back d L 0 Ht0 Ho0_0 Ho0_1 Ho0_2 Ho0_3
    isplitl [Ht1 Ho1_0 Ho1_1 Ho1_2 Ho1_3]
    · chunk_back d L 1 Ht1 Ho1_0 Ho1_1 Ho1_2 Ho1_3
    isplitl [Ht2 Ho2_0 Ho2_1 Ho2_2 Ho2_3]
    · chunk_back d L 2 Ht2 Ho2_0 Ho2_1 Ho2_2 Ho2_3
    isplitl [Ht3 Ho3_0 Ho3_1 Ho3_2 Ho3_3]
    · chunk_back d L 3 Ht3 Ho3_0 Ho3_1 Ho3_2 Ho3_3
    isplitl [Ht4 Ho4_0 Ho4_1 Ho4_2 Ho4_3]
    · chunk_back d L 4 Ht4 Ho4_0 Ho4_1 Ho4_2 Ho4_3
    isplitl [Ht5 Ho5_0 Ho5_1 Ho5_2 Ho5_3]
    · chunk_back d L 5 Ht5 Ho5_0 Ho5_1 Ho5_2 Ho5_3
    isplitl [Ht6 Ho6_0 Ho6_1 Ho6_2 Ho6_3]
    · chunk_back d L 6 Ht6 Ho6_0 Ho6_1 Ho6_2 Ho6_3
    chunk_back d L 7 Ht7 Ho7_0 Ho7_1 Ho7_2 Ho7_3
  isplitl [Hb0 Hb1 Hb2 Hbufs]
  · isplitl [Hb0 Hb1 Hb2]
    · iapply (scratch_join (F := F) d L _ _ _)
      isplitl [Hb0]; · iexact Hb0
      isplitl [Hb1]; · iexact Hb1
      iexact Hb2
    · iexact Hbufs
  isplitl [Hi0 Hi1 Hi2 Hs0 Hs1 Hs2 Hsems]
  · isplitl [Hi0]; · iexact Hi0
    isplitl [Hi1]; · iexact Hi1
    isplitl [Hi2]; · iexact Hi2
    isplitl [Hs0]; · iexact Hs0
    isplitl [Hs1]; · iexact Hs1
    isplitl [Hs2]; · iexact Hs2
    iexact Hsems
  iexists _; isplitr
  swap; · iexact HO
  ipureintro
  repeat (first | exact fun p hp => .inl hp | refine waits_insert ?_ rfl)

end Tile

end Cert.Proof.KernelIdeal

end
-- ==== Proof.KernelIdealLaunch.lean ====
/-
  The launch: the TensorCore hands the table and the result to the two SparseCores, each hands its sixteen vector
  subcores their shares, every subcore runs its task, and the shares come back: the table unchanged, the result
  holding a copy of the table in each batch entry.

  The table is the disjoint union of the 256 chunks and the result of the 1024 pieces (the set-up's two partitions), so
  "the whole array" and "every owner's share" are the same assertion read two ways; the split and the join are that
  equation, once for the table and once for the result.
-/
import proofs.«201523_g6305011990835_cont_9to1c4b_36_17_alg».proof.Proof.KernelIdealBody
import proofs.«201523_g6305011990835_cont_9to1c4b_36_17_alg».proof.Defs

noncomputable section

namespace Cert.Proof.KernelIdeal

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The whole arrays are the owners' shares -/

/-- The table whole is its 256 chunks, grouped by SparseCore, vector subcore and chunk. -/
theorem xPts_split (d : Dev nD) (f : Buf (Elt F) (xLoc d)) :
    (xLoc d ↦{fullShare} f : sProp 𝕄)
      = bigSep Finset.univ fun c : Fin 2 => bigSep Finset.univ fun s : Fin 16 => bigSep Finset.univ fun r : Fin 8 =>
          xLoc d ↦[tabSet (coordsV c s) r]{fullShare} f := by
  have e : (bigSep Finset.univ fun c : Fin 2 => bigSep Finset.univ fun s : Fin 16 => bigSep Finset.univ fun r : Fin 8 =>
      (xLoc d ↦[tabSet (coordsV c s) r]{fullShare} f : sProp 𝕄)) = bigSep (Finset.univ : Finset Own3) fun t => xLoc d ↦[tabFam t]{fullShare} f := by
    rw [bigSep_univ_prod (fun t : Own3 => (xLoc d ↦[tabFam t]{fullShare} f : sProp 𝕄))]
    refine bigSep_congr fun c _ => ?_
    rw [bigSep_univ_prod (fun p : Fin 16 × Fin 8 => (xLoc d ↦[tabFam (c, p)]{fullShare} f : sProp 𝕄))]
  rw [e, ← pointsTo_biUnion Finset.univ (ℓ := xLoc d) tabFam tab_disjoint, tab_cover]

/-- The result whole is its 1024 pieces, grouped by SparseCore, vector subcore, chunk and batch entry. -/
theorem oPts_split (d : Dev nD) (f : Buf (Elt F) (oLoc d)) :
    (oLoc d ↦{fullShare} f : sProp 𝕄)
      = bigSep Finset.univ fun c : Fin 2 => bigSep Finset.univ fun s : Fin 16 => bigSep Finset.univ fun r : Fin 8 =>
          bigSep Finset.univ fun b : Fin 4 => oLoc d ↦[outSet (coordsV c s) r b]{fullShare} f := by
  have e : (bigSep Finset.univ fun c : Fin 2 => bigSep Finset.univ fun s : Fin 16 => bigSep Finset.univ fun r : Fin 8 =>
      bigSep Finset.univ fun b : Fin 4 => (oLoc d ↦[outSet (coordsV c s) r b]{fullShare} f : sProp 𝕄))
        = bigSep (Finset.univ : Finset Own4) fun t => oLoc d ↦[outFam t]{fullShare} f := by
    rw [bigSep_univ_prod (fun t : Own4 => (oLoc d ↦[outFam t]{fullShare} f : sProp 𝕄))]
    refine bigSep_congr fun c _ => ?_
    rw [bigSep_univ_prod (fun p : Fin 16 × Fin 8 × Fin 4 => (oLoc d ↦[outFam (c, p)]{fullShare} f : sProp 𝕄))]
    refine bigSep_congr fun s _ => ?_
    rw [bigSep_univ_prod (fun p : Fin 8 × Fin 4 => (oLoc d ↦[outFam (c, s, p)]{fullShare} f : sProp 𝕄))]
  rw [e, ← pointsTo_biUnion Finset.univ (ℓ := oLoc d) outFam out_disjoint, out_cover]

/-- The two SparseCores' shares are the table and the result, whole. -/
theorem arrays_split (d : Dev nD) (fx : Buf (Elt F) (xLoc d)) (fo : Buf (Elt F) (oLoc d)) :
    (bigSep Finset.univ fun c : Fin 2 => corePts (F := F) d c fx fo) = iprop((xLoc d ↦{fullShare} fx) ∗ (oLoc d ↦{fullShare} fo)) := by
  rw [xPts_split, oPts_split, ← bigSep_sep']
  refine bigSep_congr fun c _ => ?_
  unfold corePts
  rw [← bigSep_sep']
  refine bigSep_congr fun s _ => ?_
  unfold tilePts
  rw [← bigSep_sep']
  exact bigSep_congr fun r _ => chunkPts_eq d (coordsV c s) r fx fo

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The launch theorem's obligations -/

variable [FloatOps F]

theorem defs₀_vector (c : Fin τ.nSC) (s : Fin τ.nSub) :
    defs₀ (F := F) (.scVector c s) 0 ()
      = SparseCore.onTile hcore0 hsub0 (fun c s => cc0_copy_kernel (coordsV c s)
          xW (Memref.isWhole_whole _) oW (Memref.isWhole_whole _) bW (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's share is its sixteen vector subcores' shares, going out and coming back. -/
theorem vecSplit : (K (F := F)).VecSplit' (P m) 0 := by
  intro d c
  have hgo : (bigSep Finset.univ fun i : Fin ((K (F := F)).nSub 0) => (P m).go 0 d c i)
      = corePts d (Fin.cast (nCore_any 0) c) (m (xLoc d)) (m (oLoc d)) := by
    unfold corePts
    exact (bigSep_congr fun i _ => P_go m 0 d c i).trans
      (bigSep_tasks (F := F) (fun i => tilePts d (coordsV (Fin.cast (nCore_any 0) c) i) (m (xLoc d)) (m (oLoc d))))
  have htd : (bigSep Finset.univ fun i : Fin ((K (F := F)).nSub 0) => (P m).td 0 d c i)
      = corePts d (Fin.cast (nCore_any 0) c) (m (xLoc d)) (tiledAt d (m (xLoc d))) := by
    unfold corePts
    exact (bigSep_congr fun i _ => P_td m 0 d c i).trans
      (bigSep_tasks (F := F) (fun i => tilePts d (coordsV (Fin.cast (nCore_any 0) c) i) (m (xLoc d)) (tiledAt d (m (xLoc d)))))
  rw [hgo, htd, P_st, P_dn]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for the two SparseCores, and what it hands back. -/
theorem st0_eq (d : Dev nD) : (bigSep Finset.univ fun c : Fin ((K (F := F)).nCore 0) => (P m).st 0 d c)
    = iprop((xLoc d ↦{fullShare} m (xLoc d)) ∗ (oLoc d ↦{fullShare} m (oLoc d))) := by
  simp only [P_st]
  rw [bigSep_cores (F := F) (fun c => corePts d c (m (xLoc d)) (m (oLoc d))), arrays_split]
theorem dn0_eq (d : Dev nD) : (bigSep Finset.univ fun c : Fin ((K (F := F)).nCore 0) => (P m).dn 0 d c)
    = iprop((xLoc d ↦{fullShare} m (xLoc d)) ∗ (oLoc d ↦{fullShare} tiledAt d (m (xLoc d)))) := by
  simp only [P_dn]
  rw [bigSep_cores (F := F) (fun c => corePts d c (m (xLoc d)) (tiledAt d (m (xLoc d)))), arrays_split]

/-- What @main leaves the claim: the two arguments at their launch contents, the result a copy of the table in each
    batch entry. -/
abbrev FIN (d : Dev nD) : sProp 𝕄 :=
  iprop((iLoc d ↦{fullShare} m (iLoc d)) ∗ (xLoc d ↦{fullShare} m (xLoc d)) ∗ (oLoc d ↦{fullShare} tiledAt d (m (xLoc d))))

/-- @main on device `d`'s TensorCore: the one call, from the table and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (oLoc d) = tiledAt d (m (xLoc d)) ∧ s'.mem.mem (iLoc d) = m (iLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := tiledAt d (m (xLoc d)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = tiledAt c (m (xLoc c)) ∧ r.2.mem (iLoc c) = m (iLoc c) ∧ r.2.mem (xLoc c) = m (xLoc c)

/-- Every weakly fair execution of the device's threads terminates, nothing faulting; the result ends a copy of the
    table in each batch entry, the two arguments unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdeal

end
-- ==== Proof.RefRun.lean ====
/-
  The reference program's @main as one straight line of host operations, and its run.

  @main computes the position indices (an iota over 8192 entries, given a leading axis of extent 1, then repeated
  over the 4 batch entries) and hands them, with the table, to the row lookup. The lookup and the selection helper
  it calls are module-local functions; a call means its callee's body on the operands, so unfolding both gives a
  line of 26 operations, each writing a buffer of its own:

    three for the indices; nine that wrap negative indices around (the zero and 8192 constants broadcast, the
    comparison "index < 0", the sum "index + 8192", the selection between the sum and the index), then the indices
    given a trailing axis of extent 1; nine that compute the in-range mask (the bounds 0 and 8191 broadcast, the two
    comparisons, their conjunction, and its and-reduction over the trailing axis from the constant true); the
    gather of whole rows; and four for the result (the mask repeated along each row, the not-a-number constant
    broadcast, the selection between the gathered row and that constant).

  The run then is the library's theorem for a straight line of host operations: every weakly fair execution
  terminates and leaves every buffer at the fold of the operations' results over the launch contents.
-/
import proofs.«201523_g6305011990835_cont_9to1c4b_36_17_alg».proof.Proof.Gen.ReferenceIdeal
import Idealize.ShloMosaic.Lib.StableHlo.Run

noncomputable section

namespace Cert.Proof.RefSide

open Cert.ReferenceIdeal Cert.ReferenceIdeal.Gen Idealize.ShloMosaic Idealize.ShloMosaic.TcCoe Idealize.SL.Sem
  Idealize.ShloMosaic.StableHlo

variable {F : FTy → Type} [FloatOps F]

/-- @main's 26 operations in order, the two calls unfolded: the lookup's operations write the buffers of its
    call's record, the selection helper's one operation the buffer of the nested call's record. -/
abbrev ops : List (HloOp τ sig (Elt F)) :=
  [ -- the position indices: 0, 1, …, 8191, then [1, 8192], then [4, 8192]
    nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    -- the lookup: negative indices wrapped around
    TRef.nullary main_call0.c (constantI S_ 32 0#32),
    TRef.unary main_call0.c main_call0.v0 (broadcastInDim S4x8192 ![] bcast_S_S4x8192),
    TRef.binary (.of main_v2) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2) main_call0.v2 main_call0.v3 addi,
    TRef.ternary main_call0.v1 main_call0.v3 (.of main_v2) main_call0.call0.v0 select,
    TRef.unary main_call0.call0.v0 main_call0.v5 (broadcastInDim S4x8192x1 ![0, 1] bcast_S4x8192_S4x8192x1_0_1),
    -- the in-range mask
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    -- the rows gathered, and the result selected under the mask
    TRef.binary (.of main_arg1) main_call0.v5 main_call0.v13 (fun x i => Host.gather gather_S8192x1024_S4x8192x1_S4x8192x1024_2_0_n_n_0_2_11024 x i),
    TRef.unary main_call0.v12 main_call0.v14 (broadcastInDim S4x8192x1024 ![0, 1] bcast_S4x8192_S4x8192x1024_0_1),
    TRef.nullary main_call0.cst (constant S_ .f32 0x7FC00000#32),
    TRef.unary main_call0.cst main_call0.v15 (broadcastInDim S4x8192x1024 ![] bcast_S_S4x8192x1024),
    TRef.ternary main_call0.v14 main_call0.v13 main_call0.v15 main_call0.v16 select ]

set_option maxRecDepth 1024 in
/-- @main is that straight line: with the two functions' definitions unfolded at their calls and the records at
    their fields, both sides are one chain of host steps once sequencing is re-associated. -/
theorem main_eq (c : Dev nD) : main (F := F) c = seq ops := by
  simp only [main, fn_take.body, fn_where.body, seq, bind_assoc, pure_bind]

/-- No buffer of the signature is scoped … -/
theorem scopedRefs_eq : (Finset.univ.filter fun b : Ref sig .tc => b.isScoped) = ∅ := by decide
/-- … and there is no semaphore at all. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub ..,
    binary_bufs_sub .., unary_bufs_sub .., nullary_bufs_sub .., unary_bufs_sub .., ternary_bufs_sub ..⟩

/-- For any float values, from any memory with zero counters: every weakly fair execution of @main terminates,
    and every final state has each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.RefSide

end
-- ==== Proof.RefTerm.lean ====
/-
  The reference's result as one composed term of the table, stage by stage.

  Each definition below is one intermediate array of the lookup, written as the host operations write it; the
  theorem `out_eq` says that the fold of @main's 26 operations, read at the result buffer, is the last of them
  applied to the launch contents of the table. What each array holds, entry by entry, is the next module's matter.

    posIdx    [4, 8192]        entry (b, r) is the position r as a 32-bit word: the iota 0 … 8191, given a leading
                               axis of extent 1, repeated over the 4 batch entries
    wrapIdx   [4, 8192]        a position p replaced by p + 8192 where p < 0 (signed), else kept
    startIdx  [4, 8192, 1]     the same words with a trailing axis of extent 1: one start index per (b, r)
    inRange   [4, 8192, 1]     the bit "0 ≤ start index ≤ 8191" (both comparisons signed)
    rowMask   [4, 8192]        the conjunction of those bits over the trailing axis, from the bit 1
    rowsOf t  [4, 8192, 1024]  the whole rows of the table t the start indices name
    out t     [4, 8192, 1024]  the gathered entry where the row's mask bit is 1, else the constant whose bits
                               are 0x7FC00000
-/
import proofs.«201523_g6305011990835_cont_9to1c4b_36_17_alg».proof.Proof.RefRun

noncomputable section

namespace Cert.Proof.RefSide

open Cert.ReferenceIdeal Cert.ReferenceIdeal.Gen Idealize.ShloMosaic Idealize.ShloMosaic.TcCoe Idealize.SL.Sem
  Idealize.ShloMosaic.StableHlo

variable {F : FTy → Type} [FloatOps F]

/-- The position indices: entry (b, r) is r, for every batch entry b. -/
def posIdx : IVec S4x8192 32 :=
  broadcastInDim S4x8192 ![0, 1] bcast_S1x8192_S4x8192_0_1
    (broadcastInDim S1x8192 ![1] bcast_S8192_S1x8192_1 (iotaInDim S8192 32 0))

/-- Negative indices wrapped around: p + 8192 where p < 0, else p. -/
def wrapIdx : IVec S4x8192 32 :=
  select (cmpi .slt posIdx (broadcastInDim S4x8192 ![] bcast_S_S4x8192 (constantI S_ 32 0#32)))
    (addi posIdx (broadcastInDim S4x8192 ![] bcast_S_S4x8192 (constantI S_ 32 8192#32)))
    posIdx

/-- The start indices of the gather: the wrapped indices, one index vector of length 1 per (b, r). -/
def startIdx : IVec S4x8192x1 32 :=
  broadcastInDim S4x8192x1 ![0, 1] bcast_S4x8192_S4x8192x1_0_1 wrapIdx

/-- The bit "the start index lies in [0, 8191]", per start index. -/
def inRange : IVec S4x8192x1 1 :=
  andi (cmpi .sge startIdx (broadcastInDim S4x8192x1 ![] bcast_S_S4x8192x1 (constantI S_ 32 0#32)))
    (cmpi .sle startIdx
      (broadcastInDim S4x8192x1 ![0, 1, 2] bcast_S1x1x1_S4x8192x1_0_1_2
        (broadcastInDim S1x1x1 ![2] bcast_S1_S1x1x1_2 (constantI S1 32 8191#32))))

/-- The in-range bit per row (b, r): the conjunction over the index vector's one component. -/
def rowMask : IVec S4x8192 1 :=
  Host.reduce IntOp.andi inRange (constantI S_ 1 1#1) reducesTo_S4x8192x1_S4x8192_d2 h_S_

/-- The rows of the table `t` the start indices name. -/
def rowsOf (t : FVec F S8192x1024 .f32) : FVec F S4x8192x1024 .f32 :=
  Host.gather gather_S8192x1024_S4x8192x1_S4x8192x1024_2_0_n_n_0_2_11024 t startIdx

/-- The result: the gathered row where its mask bit is set, else the not-a-number constant. -/
def out (t : FVec F S8192x1024 .f32) : FVec F S4x8192x1024 .f32 :=
  select (broadcastInDim S4x8192x1024 ![0, 1] bcast_S4x8192_S4x8192x1024_0_1 rowMask) (rowsOf t)
    (broadcastInDim S4x8192x1024 ![] bcast_S_S4x8192x1024 (constant S_ .f32 0x7FC00000#32))

attribute [local irreducible] Host.reduce Host.gather in
/-- The fold of the 26 operations at the result buffer is `out` of the table's launch contents. The fold is
    unrolled and read from the result buffer back: each operation's result at its own buffer is its function of
    the buffers it reads, and at any other buffer what was there before; the arguments' buffers are read at the
    launch contents. The transports between a buffer's contents type and a value's type are the identity (the
    two types are the same type), and what is left is the composed term, which is `out` unfolded. -/
theorem out_eq (V : Valuation τ sig (Elt F)) :
    after ops V (main_v3 : DevRef τ sig) = out (V (main_arg1 : DevRef τ sig)) := by
  after_results_simp
  simp only [TRef.toBuf, TRef.ofBuf, cast_eq]
  rfl

/-- No operation writes the first argument … -/
theorem arg0_eq (V : Valuation τ sig (Elt F)) :
    after ops V (main_arg0 : DevRef τ sig) = V (main_arg0 : DevRef τ sig) := by
  after_results

/-- … nor the second. -/
theorem arg1_eq (V : Valuation τ sig (Elt F)) :
    after ops V (main_arg1 : DevRef τ sig) = V (main_arg1 : DevRef τ sig) := by
  after_results

end Cert.Proof.RefSide

end
-- ==== Proof.LibGatherBatchRows.lean ====
/-
  A gather of whole rows under a batch of start indices, read at an index.

  `x[idx]` along axis 0 for a table `x : [N, D]` and an array of start indices `idx : [B, R, 1]` copies whole rows:
  the `[B, R, D]` result's entry `(b, r, d)` is the table's entry `(row, d)`, where `row` is start index
  `idx[b, r, 0]` read as a signed integer and clamped into `[0, N − 1]`. The host operation reads the operand at
  the operand index its dimension numbers compute from the result index: on the table's axis 0 (named by the start
  index map, collapsed) the clamped start index and nothing else, on axis 1 (the one offset axis, of full slice
  size `D`) the result's last coordinate and nothing else. So the operation at `(b, r, d)` is
  `x (clamped idx[b, r, 0], d)`, for every element type and every index width.
-/
import Idealize.ShloMosaic.PureOps
import Idealize.ShloMosaic.Lib.ValueIdx

noncomputable section

namespace Cert.Lib.GatherBatchRows

open Idealize.ShloMosaic Idealize.ShloMosaic.ValueIdx

variable {α : Type}

/-- The whole-row dimension numbers for a table `[N, D]`, start indices `[B, R, 1]` and a result `[B, R, D]`:
    the result's last axis is the one offset axis, the table's axis 0 is collapsed and is the one axis a start
    index names, the index vector lies along the start indices' last axis, a slice is one whole row. Their
    conditions `wf` are decided on a program's literal shapes. -/
abbrev rowsDims (N D B R : Nat)
    (wf : GatherDims.WF ⟨2, ![N, D]⟩ ⟨3, ![B, R, 1]⟩ ⟨3, ![B, R, D]⟩ [2] [0] [] [0] [] 2 ![1, D]) :
    GatherDims ⟨2, ![N, D]⟩ ⟨3, ![B, R, 1]⟩ ⟨3, ![B, R, D]⟩ where
  offsetDims := [2]
  collapsedSliceDims := [0]
  operandBatchingDims := []
  startIndicesBatchingDims := []
  startIndexMap := [0]
  indexVectorDim := 2
  sliceSizes := ![1, D]
  wf := wf

/-- The operand index on the table's axis 0, for result index `(b, r, d)`: the axis is collapsed (no offset
    coordinate), is no batching axis, and is the one the start index names, so what is left is the start index
    `idx[b, r, 0]` — read at the result's two batch coordinates, 0 along the index vector — signed and clamped to
    `[0, N − 1]` (the table's extent less the slice size 1). -/
theorem operandIdx_row {N D B R w : Nat} (hN : 0 < N)
    (wf : GatherDims.WF ⟨2, ![N, D]⟩ ⟨3, ![B, R, 1]⟩ ⟨3, ![B, R, D]⟩ [2] [0] [] [0] [] 2 ![1, D])
    (idx : IVec ⟨3, ![B, R, 1]⟩ w) (b : Fin B) (r : Fin R) (d : Fin D) :
    ((rowsDims N D B R wf).operandIdx (ix3 b r d) idx (0 : Fin 2)).val
      = min (idx (ix3 b r (0 : Fin 1))).toInt.toNat (N - 1) := by
  show (rowsDims N D B R wf).start (ix3 b r d) idx 0 + (rowsDims N D B R wf).batchCoord (ix3 b r d) 0
      + (rowsDims N D B R wf).offCoord (ix3 b r d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D B R wf).startIndexMap from List.mem_singleton.mpr rfl)]
  have hsi : (rowsDims N D B R wf).siIdx (ix3 b r d) ⟨List.idxOf (0 : Fin 2) (rowsDims N D B R wf).startIndexMap,
      List.idxOf_lt_length_iff.2 (List.mem_singleton.mpr rfl)⟩ = ix3 b r (0 : Fin 1) := by
    funext c; refine Fin.ext ?_
    match c with
    | ⟨0, _⟩ => rfl
    | ⟨1, _⟩ => rfl
    | ⟨2, _⟩ => rfl
  rw [hsi]
  rfl

/-- The operand index on the table's axis 1: no start index names it (the slice starts at 0), it is no batching
    axis, and it is the one axis kept as an offset axis, so what is left is the result's last coordinate. -/
theorem operandIdx_col {N D B R w : Nat}
    (wf : GatherDims.WF ⟨2, ![N, D]⟩ ⟨3, ![B, R, 1]⟩ ⟨3, ![B, R, D]⟩ [2] [0] [] [0] [] 2 ![1, D])
    (idx : IVec ⟨3, ![B, R, 1]⟩ w) (b : Fin B) (r : Fin R) (d : Fin D) :
    ((rowsDims N D B R wf).operandIdx (ix3 b r d) idx (1 : Fin 2)).val = d.val := by
  show (rowsDims N D B R wf).start (ix3 b r d) idx 1 + (rowsDims N D B R wf).batchCoord (ix3 b r d) 1
      + (rowsDims N D B R wf).offCoord (ix3 b r d) 1 = _
  rw [GatherDims.batchCoord_eq_zero _ _ _ List.not_mem_nil]
  unfold GatherDims.start
  rw [dif_neg (fun h : (1 : Fin 2) ∈ (rowsDims N D B R wf).startIndexMap =>
    absurd (List.mem_singleton.mp h) (show ¬ ((1 : Fin 2) = 0) by decide))]
  simp only [Nat.add_zero, Nat.zero_add]
  rfl

/-- THE GATHER READ AT `(b, r, d)`: the table at the row start index `idx[b, r, 0]` names — read signed and
    clamped into `[0, N − 1]` — and the same column `d`. -/
theorem gather_rows_apply {N D B R w : Nat} (hN : 0 < N)
    (wf : GatherDims.WF ⟨2, ![N, D]⟩ ⟨3, ![B, R, 1]⟩ ⟨3, ![B, R, D]⟩ [2] [0] [] [0] [] 2 ![1, D])
    (x : (⟨2, ![N, D]⟩ : Shape).Idx → α) (idx : IVec ⟨3, ![B, R, 1]⟩ w) (b : Fin B) (r : Fin R) (d : Fin D) :
    Host.gather (rowsDims N D B R wf) x idx (ix3 b r d)
      = x (ix2 ⟨min (idx (ix3 b r (0 : Fin 1))).toInt.toNat (N - 1), by omega⟩ d) := by
  unfold Host.gather
  refine congrArg x (funext fun a => Fin.ext ?_)
  match a with
  | ⟨0, _⟩ => exact operandIdx_row hN wf idx b r d
  | ⟨1, _⟩ => exact operandIdx_col wf idx b r d

end Cert.Lib.GatherBatchRows

end
-- ==== Proof.RefValue.lean ====
/-
  The value of the reference's result: the table tiled over the batch axis.

  The lookup's start indices are the positions 0, 1, …, 8191 themselves, so every step that guards against a bad
  index is idle, entry by entry:

    * a position r < 8192, written as a 32-bit word and read back signed, is r; so "r < 0" is false and the
      wrap-around leaves r alone, and both "r ≥ 0" and "r ≤ 8191" are true, so the in-range bit is 1;
    * the conjunction of bits that are all 1, started from 1, is 1: every row's mask bit is set;
    * the gather reads, at (b, r, d), the table at the row the start index names — r again, since clamping r into
      [0, 8191] changes nothing — and the same column d;
    * with the mask bit set the final selection keeps the gathered entry.

  So entry (b, r, d) of the result is the table's entry (r, d), for each of the 4 batch entries b: the shared
  specification's `tiled`. The run then says so of every weakly fair execution of @main.
-/
import proofs.«201523_g6305011990835_cont_9to1c4b_36_17_alg».proof.Proof.RefTerm
import proofs.«201523_g6305011990835_cont_9to1c4b_36_17_alg».proof.Proof.Spec
import proofs.«201523_g6305011990835_cont_9to1c4b_36_17_alg».proof.Proof.LibGatherBatchRows
import Idealize.ShloMosaic.PureOps.Ideal
import Idealize.ShloMosaic.PureOps.Reduce
import Idealize.ShloMosaic.Lib.ValueIdx

noncomputable section

namespace Cert.Proof.RefSide

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## Positions as 32-bit words -/

/-- A position below 8192, written as a 32-bit word and read back as a signed integer, is the position: the word's
    top bit is clear. -/
theorem toInt_ofNat_pos (n : Nat) (h : n < 8192) : (BitVec.ofNat 32 n).toInt = (n : Int) := by
  have e := BitVec.toInt_eq_toNat_cond (BitVec.ofNat 32 n)
  rw [BitVec.toNat_ofNat] at e
  omega

theorem toInt_zero32 : (0#32 : BitVec 32).toInt = 0 := by decide
theorem toInt_last32 : (8191#32 : BitVec 32).toInt = 8191 := by decide

/-- A position is not negative: the signed comparison "position < 0" gives the bit 0. -/
theorem pos_not_neg (n : Nat) (h : n < 8192) : IntOp.cmpi .slt (BitVec.ofNat 32 n) 0#32 = 0#1 := by
  have hs : (BitVec.ofNat 32 n).slt 0#32 = false := by
    unfold BitVec.slt
    rw [toInt_ofNat_pos n h, toInt_zero32]
    exact decide_eq_false (by omega)
  show BitVec.ofBool ((BitVec.ofNat 32 n).slt 0#32) = 0#1
  rw [hs]; rfl

/-- "position ≥ 0" (signed) gives the bit 1 … -/
theorem pos_ge_zero (n : Nat) (h : n < 8192) : IntOp.cmpi .sge (BitVec.ofNat 32 n) 0#32 = 1#1 := by
  have hs : (0#32 : BitVec 32).sle (BitVec.ofNat 32 n) = true := by
    unfold BitVec.sle
    rw [toInt_ofNat_pos n h, toInt_zero32]
    exact decide_eq_true (by omega)
  show BitVec.ofBool ((0#32 : BitVec 32).sle (BitVec.ofNat 32 n)) = 1#1
  rw [hs]; rfl

/-- … and so does "position ≤ 8191". -/
theorem pos_le_last (n : Nat) (h : n < 8192) : IntOp.cmpi .sle (BitVec.ofNat 32 n) 8191#32 = 1#1 := by
  have hs : (BitVec.ofNat 32 n).sle 8191#32 = true := by
    unfold BitVec.sle
    rw [toInt_ofNat_pos n h, toInt_last32]
    exact decide_eq_true (by omega)
  show BitVec.ofBool ((BitVec.ofNat 32 n).sle 8191#32) = 1#1
  rw [hs]; rfl

/-- Clamping a position into [0, 8191] leaves it alone. -/
theorem pos_clamp (n : Nat) (h : n < 8192) : min (BitVec.ofNat 32 n).toInt.toNat (8192 - 1) = n := by
  rw [toInt_ofNat_pos n h, Int.toNat_natCast]
  omega

/-! ## A conjunction of ones -/

/-- A left fold by `and` over bits that are all 1, started at 1, is 1. -/
theorem foldl_andi_ones {ι : Type} (f : ι → BitVec 1) (hf : ∀ i, f i = 1#1) :
    ∀ (l : List ι), l.foldl (fun r n => IntOp.andi r (f n)) 1#1 = 1#1
  | [] => rfl
  | a :: l => by
    rw [List.foldl_cons, hf a]
    exact foldl_andi_ones f hf l

/-- A host reduction by `and`, from the bit 1, of an array of bits that are all 1 is 1 at every result index:
    whichever operand entries reduce into it, the fold meets only ones. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  rw [Host.reduce_eq_foldl, hi]
  exact foldl_andi_ones x hx _

/-! ## The stages, entry by entry -/

/-- Entry (b, r) of the position indices is r: the iota's entry r, carried through the two broadcasts. -/
theorem posIdx_apply (j : S4x8192.Idx) : posIdx j = BitVec.ofNat 32 (j 1).val := rfl

/-- The wrap-around leaves a position alone, since it is not negative. -/
theorem wrapIdx_apply (j : S4x8192.Idx) : wrapIdx j = BitVec.ofNat 32 (j 1).val := by
  have hj : (j 1).val < 8192 := idx2_lt1 j
  show Scalar.select (IntOp.cmpi .slt (posIdx j) 0#32) (IntOp.addi (posIdx j) 8192#32) (posIdx j) = _
  rw [posIdx_apply, pos_not_neg _ hj, select_zero]

/-- The start index of row (b, r) is r. -/
theorem startIdx_apply (j : S4x8192x1.Idx) : startIdx j = BitVec.ofNat 32 (j 1).val := by
  unfold startIdx broadcastInDim
  exact wrapIdx_apply _

/-- Every start index is in range. -/
theorem inRange_apply (j : S4x8192x1.Idx) : inRange j = 1#1 := by
  have hj : (j 1).val < 8192 := (j 1).isLt
  show IntOp.andi (IntOp.cmpi .sge (startIdx j) 0#32) (IntOp.cmpi .sle (startIdx j) 8191#32) = 1#1
  rw [startIdx_apply, pos_ge_zero _ hj, pos_le_last _ hj]
  rfl

/-- Every row's mask bit is set. -/
theorem rowMask_apply (j : S4x8192.Idx) : rowMask j = 1#1 :=
  reduce_andi_ones inRange _ _ _ inRange_apply rfl j

/-- The gather reads row r of the table at (b, r, d): the start index there is r, and r clamped is r. -/
theorem rowsOf_apply (t : FVec F S8192x1024 .f32) (b : Fin 4) (r : Fin 8192) (d : Fin 1024) :
    rowsOf t (ix3 b r d) = t (ix2 r d) := by
  have h := Cert.Lib.GatherBatchRows.gather_rows_apply (N := 8192) (D := 1024) (B := 4) (R := 8192) (by decide)
    gather_S8192x1024_S4x8192x1_S4x8192x1024_2_0_n_n_0_2_11024_wf t startIdx b r d
  refine h.trans (congrArg t ?_)
  have hr : (⟨min (startIdx (ix3 b r (0 : Fin 1))).toInt.toNat (8192 - 1), by omega⟩ : Fin 8192) = r := by
    refine Fin.ext ?_
    show min (startIdx (ix3 b r (0 : Fin 1))).toInt.toNat (8192 - 1) = r.val
    rw [startIdx_apply]
    exact pos_clamp _ r.isLt
  rw [hr]

/-- Entry (b, r, d) of the result is the table's entry (r, d): the mask bit is set, so the selection keeps the
    gathered entry. -/
theorem out_apply (t : FVec F S8192x1024 .f32) (b : Fin 4) (r : Fin 8192) (d : Fin 1024) :
    out t (ix3 b r d) = t (ix2 r d) := by
  have hm : broadcastInDim S4x8192x1024 ![0, 1] bcast_S4x8192_S4x8192x1024_0_1 rowMask (ix3 b r d) = 1#1 := by
    unfold broadcastInDim
    exact rowMask_apply _
  unfold out
  rw [select_apply, hm, select_one, rowsOf_apply]

/-- The result is the table tiled over the batch axis. -/
theorem out_eq_tiled (t : FVec F S8192x1024 .f32) : out t = Cert.Proof.Spec.tiled t := by
  funext i
  obtain ⟨b, r, d, rfl⟩ : ∃ (b : Fin 4) (r : Fin 8192) (d : Fin 1024), i = ix3 b r d := ⟨i 0, i 1, i 2, eq_ix3 i⟩
  rw [out_apply, Cert.Proof.Spec.tiled_ix3]

/-! ## The run -/

/-- The reference's run at the exact values: every weakly fair execution of @main terminates, the result array is the
    table tiled over the batch axis, the two arguments are unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v3)
            = Cert.Proof.Spec.tiled (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono
    (fun _ h c => ⟨(h c main_v3).trans ((out_eq _).trans (out_eq_tiled _)),
      (h c main_arg0).trans (arg0_eq _), (h c main_arg1).trans (arg1_eq _)⟩)
    (run_fold m ρ)

end Cert.Proof.RefSide

end
-- ==== Proof.lean ====
/-
  The kernel and the reference compute the same array: a copy of the 8192 × 1024 table in each of the four batch
  entries of the result.

  The reference looks the table up at the positions 0, 1, …, 8191 for every batch entry (`jnp.take` along rows): the
  positions are in range, so its wrap-around and its out-of-range mask change nothing and row `r` of every batch entry
  is row `r` of the table. The kernel never forms the positions: its 32 vector subcores copy the table's rows, 32 at a
  time through three staging slots, into each batch entry. A copy moves numbers and computes nothing, so the two results
  are equal entry by entry for every element type, at the exact values as at the machine's words; the integer argument
  is read by neither. The pass that idealizes the kernel rewrote nothing, so there is nothing to preserve.

  The kernel's run (both instances) is the launch theorem applied to one vector subcore's task; the reference's run is
  its operations' fold read at an index; the shared specification is `Spec.tiled`.
-/
import proofs.«201523_g6305011990835_cont_9to1c4b_36_17_alg».proof.Defs
import proofs.«201523_g6305011990835_cont_9to1c4b_36_17_alg».proof.Proof.Gen.Kernel
import proofs.«201523_g6305011990835_cont_9to1c4b_36_17_alg».proof.Proof.Gen.Kernel.Skeleton
import proofs.«201523_g6305011990835_cont_9to1c4b_36_17_alg».proof.Proof.Gen.KernelIdeal
import proofs.«201523_g6305011990835_cont_9to1c4b_36_17_alg».proof.Proof.Gen.KernelIdeal.Skeleton
import proofs.«201523_g6305011990835_cont_9to1c4b_36_17_alg».proof.Proof.Gen.ReferenceIdeal
import proofs.«201523_g6305011990835_cont_9to1c4b_36_17_alg».proof.Proof.Gen.Pre_input_domain
import proofs.«201523_g6305011990835_cont_9to1c4b_36_17_alg».proof.Proof.KernelLaunch
import proofs.«201523_g6305011990835_cont_9to1c4b_36_17_alg».proof.Proof.KernelIdealLaunch
import proofs.«201523_g6305011990835_cont_9to1c4b_36_17_alg».proof.Proof.RefValue
import Idealize.ShloMosaic.Adequacy
import Idealize.ShloMosaic.Init

noncomputable section

namespace Cert.Proof

open Idealize.ShloMosaic Idealize.SL.Sem

/-- The kernel, at the machine's words: it runs to the end and leaves its two arguments as they were. -/
theorem frame_k : Cert.frame_Kernel := fun m ρ _ =>
  (θ_run Cert.Kernel.defs _ _).mono (fun _ h c => (h c).2) (Cert.Proof.Kernel.run_main (F := Bits) m ρ)

/-- The same at the exact values. -/
theorem frame_ki : Cert.frame_KernelIdeal := fun m ρ _ =>
  (θ_run Cert.KernelIdeal.defs _ _).mono (fun _ h c => (h c).2) (Cert.Proof.KernelIdeal.run_main (F := Ideal) m ρ)

/-- The reference runs to the end and leaves its two arguments as they were. -/
theorem frame_ri : Cert.frame_ReferenceIdeal := fun m ρ _ =>
  (θ_run Cert.ReferenceIdeal.defs _ _).mono (fun _ h c => (h c).2) (Cert.Proof.RefSide.run m ρ)

/-- From memories that agree on the arguments both programs end with the table copied into each batch entry. -/
theorem algebraic : Cert.algebraic_KernelIdeal_ReferenceIdeal := by
  intro m ρ m' ρ' _ hagree
  refine ⟨fun c => Cert.Proof.KernelIdeal.tiledAt c (m (Cert.Proof.KernelIdeal.xLoc c)),
    Cert.Proof.KernelIdeal.run_main (F := Ideal) m ρ, ?_⟩
  refine (θ_run Cert.ReferenceIdeal.defs _ _).mono (fun _ h c => ⟨(h c).1.trans ?_, (h c).2⟩) (Cert.Proof.RefSide.run m' ρ')
  rw [(hagree c).2]
  rfl

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
